-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S16x4096 .f32) (main_arg3 : FVec F S4096x16 .f32) (main_arg4 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S16384x4096 : Shape := ⟨2, ![16384, 4096]⟩
abbrev S512x512 : Shape := ⟨2, ![512, 512]⟩
abbrev S512x16 : Shape := ⟨2, ![512, 16]⟩
abbrev S16x512 : Shape := ⟨2, ![16, 512]⟩
abbrev S1x4096 : Shape := ⟨2, ![1, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 10
  | .vmem => 17
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S16384x4096, .f32⟩
  | .hbm, ⟨6, _⟩ => ⟨S4096x4096, .bf16⟩
  | .hbm, ⟨7, _⟩ => ⟨S1x4096, .f32⟩
  | .hbm, ⟨8, _⟩ => ⟨S16384x4096, .f32⟩
  | .hbm, ⟨9, _⟩ => ⟨S4x4096x4096, .f32⟩
  | .local _ .vmem, ⟨0, _⟩ => ⟨S512x512, .f32⟩
  | .local _ .vmem, ⟨1, _⟩ => ⟨S512x512, .f32⟩
  | .local _ .vmem, ⟨2, _⟩ => ⟨S512x16, .f32⟩
  | .local _ .vmem, ⟨3, _⟩ => ⟨S512x16, .f32⟩
  | .local _ .vmem, ⟨4, _⟩ => ⟨S16x512, .f32⟩
  | .local _ .vmem, ⟨5, _⟩ => ⟨S16x512, .f32⟩
  | .local _ .vmem, ⟨6, _⟩ => ⟨S512x512, .bf16⟩
  | .local _ .vmem, ⟨7, _⟩ => ⟨S512x512, .bf16⟩
  | .local _ .vmem, ⟨8, _⟩ => ⟨S1024x256, .f32⟩
  | .local _ .vmem, ⟨9, _⟩ => ⟨S1024x256, .f32⟩
  | .local _ .vmem, ⟨10, _⟩ => ⟨S2048x256, .bf16⟩
  | .local _ .vmem, ⟨11, _⟩ => ⟨S2048x256, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 2, 16], ![false, false, false]⟩

def k1_cond2 (i : grid1.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x4096_S16384x4096 : S4x4096x4096.ShapeCasts S16384x4096
  inb_S512x16_S512x16_0_0 : ∀ a, (![0, 0] : Fin 2 → Nat) a + S512x16.size a ≤ S512x16.size a
  h_S512x16 : 0 < S512x16.numel
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S16384x4096_S4x4096x4096 : S16384x4096.ShapeCasts S4x4096x4096
  dot_S512x16_S16x512_S512x512_1_0_0_1_n_n_wf : DotDims.WF S512x16 S16x512 S512x512 [1] [0] [0] [1] [] []
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S4096x16.size a
  hwx0_1 : ∀ i : grid0.Coords, EltTy.bits .f32 = 32 ∨ (Rect.block (s := S4096x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .bf16 = 32 ∨ (Rect.block (s := S4096x4096) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S16384x4096.size a
  hwx1_0 : ∀ i : grid1.Coords, EltTy.bits .f32 = 32 ∨ (Rect.block (s := S16384x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S16384x4096.size a
  hwx1_3 : ∀ i : grid1.Coords, EltTy.bits .f32 = 32 ∨ (Rect.block (s := S16384x4096) S1024x2048.size (cc1_transform_3 i) (hinb1_3 i)).WholeWords (EltTy.packing .f32)

variable [Facts₀]

def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x4096x4096, .f32⟩
  | .hbm, ⟨11, _⟩ => ⟨S1x1x4096, .f32⟩
  | .hbm, ⟨12, _⟩ => ⟨S4x4096x4096, .f32⟩
  | .hbm, ⟨13, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4096x16_S16x4096_S4096x4096_1_0_0_1_n_n_wf : DotDims.WF S4096x16 S16x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.K.Region0.lean ====
/-
  The first kernel region: the adapted weight, block by block.

  The grid is 8 × 8; at point (i, j) the body reads block (i, j) of the base weight (512 × 512), row block i of the
  tall factor (512 × 16) and column block j of the wide factor (16 × 512), and stores one whole 512 × 512 block: the
  base block plus the scaled product of the two factor blocks, narrowed to half precision. Nothing is kept from point
  to point, so what the body leaves in the output's buffer is one function of the three input blocks, and every input
  buffer holds its block at every point whether or not it was fetched there (an unfetched block has not moved).
  Everything is stated at the contents `V` the region finds in the arrays.
-/
import proofs.«172782_j53618371723762_1_alg».proof.Proof.Gen.Kernel.Launch
import proofs.«172782_j53618371723762_1_alg».proof.Proof.Gen.Kernel.Skeleton
import proofs.«172782_j53618371723762_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The base weight's buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The tall factor's buffer holds its row block at every point (fetched only when the row block changes). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The wide factor's buffer holds its column block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rW0 : Rect S512x512 := Rect.unit (s := S512x512) ![0, 0] S512x512.size inb_S512x512_S512x512_0_0
abbrev rB0 : Rect S512x16 := Rect.unit (s := S512x16) ![0, 0] S512x16.size inb_S512x16_S512x16_0_0
abbrev rA0 : Rect S16x512 := Rect.unit (s := S16x512) ![0, 0] S16x512.size inb_S16x512_S16x512_0_0

/-- The output's buffer after the body, from the three input blocks: its one store. -/
def out0_3 (x0 : Vec F S512x512 .f32) (x1 : Vec F S512x16 .f32) (x2 : Vec F S16x512 .f32) : Vec F S512x512 .bf16 :=
  View.canon [⟨rW0, k0_pay1 (View.ld x1 rB0) (View.ld x2 rA0) (View.ld x0 rW0)⟩]

/-- The one store covers the buffer. -/
theorem cover0_3 (p0 : Vec F S512x512 .bf16) (y : S512x512.Idx) :
    ∃ pc ∈ ([⟨rW0, p0⟩] : List (View.Piece (Elt F) S512x512 .bf16)), y ∈ pc.1.set :=
  View.cover_of_tiled [⟨rW0, p0⟩] S512x512.size (by rfl) y

set_option maxHeartbeats 1000000 in
/-- The body on whole staging buffers, the inputs' at their contents and the output's at anything, runs to the
    continuation holding the inputs' as they were and the output's at `out0_3` of them. -/
theorem sound_kernel0 (c : Dev nD) (E : Set ℕ) (i : grid0.Coords)
    (arg2 : Memref sig .tc .vmem S512x512 .f32) (harg2 : arg2.IsWhole) (arg3 : Memref sig .tc .vmem S512x16 .f32) (harg3 : arg3.IsWhole)
    (arg4 : Memref sig .tc .vmem S16x512 .f32) (harg4 : arg4.IsWhole) (arg5 : Memref sig .tc .vmem S512x512 .bf16) (harg5 : arg5.IsWhole)
    (x0 : Vec F S512x512 .f32) (x1 : Vec F S512x16 .f32) (x2 : Vec F S16x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__weight_kernel i arg2 harg2 arg3 harg3 arg4 harg4 arg5 harg5) K := by
  simp only [cc0__weight_kernel_eq_skeleton]; unfold cc0__weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The arrays as the region finds them; after the body each input's buffer at its block and the output's at
    `out0_3` of the blocks; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Defs.lean ====
/-
  The second kernel region: what its three control cases share.

  The grid is 16 × 2 × 16, the last axis the blocked contraction. The body zeroes the accumulator when the contraction
  coordinate is 0, adds the product of the point's two blocks to it at every point, and when the coordinate is 15
  stores accumulator plus bias into the output's buffer. So a point is in one of three cases (first, middle, last of a
  run of sixteen), the output window is idle except in the last, and the accumulator — a scratch buffer of the kernel's
  own — is carried from point to point. Here: the two conditions in closed form over the grid, where the windows are
  idle, the memrefs the body is called with, and the scoped buffers the kernel does not touch.
-/
import proofs.«172782_j53618371723762_1_alg».proof.Proof.Gen.Kernel.Launch
import proofs.«172782_j53618371723762_1_alg».proof.Proof.Gen.Kernel.Skeleton
import proofs.«172782_j53618371723762_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- "The contraction coordinate is 0", as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "The contraction coordinate is 15". -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_3 : View sig .tc .vmem S1024x2048 .f32 := (Memref.whole cc1_stg3_0 : Memref sig .tc .vmem S1024x2048 .f32).view
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x2048 .f32 := Memref.whole cc1_scratch0
abbrev VS1_0 : View sig .tc .vmem S1024x2048 .f32 := scM1_0.view

/-! ## The scoped buffers beside the accumulator -/

/-- The other region's eight staging buffers, each whole at some contents: this kernel never touches them. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scoped buffers no window of this region stages: the accumulator first, then the others. -/
theorem scopedRest1_acc_first (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 c) :=
  Pipeline.scopedRest_eq_of_list spec1 c [cc1_scratch0, cc0_stg0_0, cc0_stg0_1, cc0_stg1_0, cc0_stg1_1, cc0_stg2_0, cc0_stg2_1, cc0_stg3_0, cc0_stg3_1] (by decide) (by decide)

/-- The class invariant with the accumulator as a memref owned at some contents. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA; rw [scopedRest1_acc_first]; simp only [scM1_0, owns_whole]; try rfl

end Cert.Kernel.Hand

end
-- ==== Proof.K.Run1A.lean ====
/-
  The second region's body at the FIRST point of a run of sixteen: the accumulator is zeroed, then the point's product
  is added to it; the output's buffer is not touched (and is handed back as found). What the accumulator ends with is
  left as the list of stores the run finds.
-/
import proofs.«172782_j53618371723762_1_alg».proof.Proof.K.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.Run1B.lean ====
/-
  The second region's body at a MIDDLE point of a run of sixteen: the point's product is added to the accumulator as
  the point before left it; the output's buffer is not touched. What the accumulator ends with is left as the list of
  stores the run finds.
-/
import proofs.«172782_j53618371723762_1_alg».proof.Proof.K.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.Run1C.lean ====
/-
  The second region's body at the LAST point of a run of sixteen: the point's product is added to the accumulator as the
  point before left it, and accumulator plus bias is stored into the output's buffer. What the two buffers end with is
  left as the lists of stores the run finds.
-/
import proofs.«172782_j53618371723762_1_alg».proof.Proof.K.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.Region1.lean ====
/-
  The second kernel region, point by point.

  What each of the three cases leaves in the accumulator (and, in the last, in the output's buffer) is read back from
  the stores its run found; `outsAt1` follows the accumulator through the grid by recursion on the point — the first
  point of a run of sixteen starts from nothing, every other one from what the point before left —; the region's
  invariant holds the accumulator at that value between points; the proof data names each input's buffer at its block
  and the output's at `outsAt1`; and the body obligation is a case split on the two closed forms.
  Everything is stated at the contents `V` the region finds in the arrays.
-/
import proofs.«172782_j53618371723762_1_alg».proof.Proof.K.Run1A
import proofs.«172782_j53618371723762_1_alg».proof.Proof.K.Run1B
import proofs.«172782_j53618371723762_1_alg».proof.Proof.K.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight's buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias's buffer holds its block at every point (fetched only when the column block changes). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

section Cases
variable (c : Dev nD) (t : Fin cfg1.N)

/-- The first case's run at point `t`'s memrefs. -/
abbrev runA (h0 : cond1_0 (grid1.coords t)) (h1 : ¬cond1_1 (grid1.coords t)) (x0 : Vec F S1024x256 .f32) (x1 : Vec F S2048x256 .bf16) (x2 : Vec F S1x2048 .f32) :=
  kernelRun1_A (F := F) c (grid1.coords t) (ms1_0 t) (hs1_0 t) (ms1_1 t) (hs1_1 t) (ms1_2 t) (hs1_2 t) (ms1_3 t) (hs1_3 t) scM1_0 (Memref.isWhole_whole _) h0 h1 x0 x1 x2
/-- The middle case's. -/
abbrev runB (h0 : ¬cond1_0 (grid1.coords t)) (h1 : ¬cond1_1 (grid1.coords t)) (x0 : Vec F S1024x256 .f32) (x1 : Vec F S2048x256 .bf16) (x2 : Vec F S1x2048 .f32) (xs0 : Vec F S1024x2048 .f32) :=
  kernelRun1_B (F := F) c (grid1.coords t) (ms1_0 t) (hs1_0 t) (ms1_1 t) (hs1_1 t) (ms1_2 t) (hs1_2 t) (ms1_3 t) (hs1_3 t) scM1_0 (Memref.isWhole_whole _) h0 h1 x0 x1 x2 xs0
/-- The last case's. -/
abbrev runC (h0 : ¬cond1_0 (grid1.coords t)) (h1 : cond1_1 (grid1.coords t)) (x0 : Vec F S1024x256 .f32) (x1 : Vec F S2048x256 .bf16) (x2 : Vec F S1x2048 .f32) (xs0 : Vec F S1024x2048 .f32) :=
  kernelRun1_C (F := F) c (grid1.coords t) (ms1_0 t) (hs1_0 t) (ms1_1 t) (hs1_1 t) (ms1_2 t) (hs1_2 t) (ms1_3 t) (hs1_3 t) scM1_0 (Memref.isWhole_whole _) h0 h1 x0 x1 x2 xs0

/-- The first case stores nothing into the output's buffer: a placeholder nothing consults. -/
def outA (h0 : cond1_0 (grid1.coords t)) (h1 : ¬cond1_1 (grid1.coords t)) (x0 : Vec F S1024x256 .f32) (x1 : Vec F S2048x256 .bf16) (x2 : Vec F S1x2048 .f32) : Vec F S1024x2048 .f32 :=
  VO1_3.read (Elt F) (VO1_3.writes (Elt F) VO1_3.junk (runA c t h0 h1 x0 x1 x2).1)
/-- Its stores into the accumulator cover it. -/
theorem scoverA (h0 : cond1_0 (grid1.coords t)) (h1 : ¬cond1_1 (grid1.coords t)) (x0 : Vec F S1024x256 .f32) (x1 : Vec F S2048x256 .bf16) (x2 : Vec F S1x2048 .f32) (y : S1024x2048.Idx) :
    ∃ pc ∈ (runA c t h0 h1 x0 x1 x2).2.1, y ∈ pc.1.set :=
  View.cover_of_tiledL (runA c t h0 h1 x0 x1 x2).2.1 S1024x2048.size (by sl_kernel_rfl) y
/-- What it leaves in the accumulator. -/
def accA (h0 : cond1_0 (grid1.coords t)) (h1 : ¬cond1_1 (grid1.coords t)) (x0 : Vec F S1024x256 .f32) (x1 : Vec F S2048x256 .bf16) (x2 : Vec F S1x2048 .f32) : Vec F S1024x2048 .f32 :=
  VS1_0.read (Elt F) (VS1_0.writes (Elt F) VS1_0.junk (runA c t h0 h1 x0 x1 x2).2.1)

/-- The middle case stores nothing into the output's buffer either. -/
def outB (h0 : ¬cond1_0 (grid1.coords t)) (h1 : ¬cond1_1 (grid1.coords t)) (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (runB c t h0 h1 x0 x1 x2 xs0).1)
theorem scoverB (h0 : ¬cond1_0 (grid1.coords t)) (h1 : ¬cond1_1 (grid1.coords t)) (x0 : Vec F S1024x256 .f32) (x1 : Vec F S2048x256 .bf16) (x2 : Vec F S1x2048 .f32) (xs0 : Vec F S1024x2048 .f32) (y : S1024x2048.Idx) :
    ∃ pc ∈ (runB c t h0 h1 x0 x1 x2 xs0).2.1, y ∈ pc.1.set :=
  View.cover_of_tiledL (runB c t h0 h1 x0 x1 x2 xs0).2.1 S1024x2048.size (by sl_kernel_rfl) y
def accB (h0 : ¬cond1_0 (grid1.coords t)) (h1 : ¬cond1_1 (grid1.coords t)) (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (runB c t h0 h1 x0 x1 x2 xs0).2.1)

/-- The last case's one store into the output's buffer covers it. -/
theorem coverC (h0 : ¬cond1_0 (grid1.coords t)) (h1 : cond1_1 (grid1.coords t)) (x0 : Vec F S1024x256 .f32) (x1 : Vec F S2048x256 .bf16) (x2 : Vec F S1x2048 .f32) (xs0 : Vec F S1024x2048 .f32) (y : S1024x2048.Idx) :
    ∃ pc ∈ (runC c t h0 h1 x0 x1 x2 xs0).1, y ∈ pc.1.set :=
  View.cover_of_tiledL (runC c t h0 h1 x0 x1 x2 xs0).1 S1024x2048.size (by sl_kernel_rfl) y
/-- What the last case leaves in the output's buffer. -/
def outC (h0 : ¬cond1_0 (grid1.coords t)) (h1 : cond1_1 (grid1.coords t)) (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (runC c t h0 h1 x0 x1 x2 xs0).1)
theorem scoverC (h0 : ¬cond1_0 (grid1.coords t)) (h1 : cond1_1 (grid1.coords t)) (x0 : Vec F S1024x256 .f32) (x1 : Vec F S2048x256 .bf16) (x2 : Vec F S1x2048 .f32) (xs0 : Vec F S1024x2048 .f32) (y : S1024x2048.Idx) :
    ∃ pc ∈ (runC c t h0 h1 x0 x1 x2 xs0).2.1, y ∈ pc.1.set :=
  View.cover_of_tiledL (runC c t h0 h1 x0 x1 x2 xs0).2.1 S1024x2048.size (by sl_kernel_rfl) y
def accC (h0 : ¬cond1_0 (grid1.coords t)) (h1 : cond1_1 (grid1.coords t)) (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (runC c t h0 h1 x0 x1 x2 xs0).2.1)

end Cases

/-! ## The accumulation, point by point -/

/-- What the output's buffer and the accumulator hold after the body at position `n`: the case the closed forms
    select there, at the point's blocks, over the accumulator the point before left. -/
def outsAt1 (c : Dev nD) : (n : ℕ) → n < cfg1.N → Vec F S1024x2048 .f32 × Vec F S1024x2048 .f32
  | 0, hn => (outA c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), accA c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (outA c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), accA c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (outC c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, accC c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outB c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, accB c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (outA c t ((hcond1_0 t).mpr h0) (fun h => h1 ((hcond1_1 t).mp h)) (iblk1 V c 0 t) (iblk1 V c 1 t) (iblk1 V c 2 t),
      accA c t ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (outB c t (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      accB c t (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      accC c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator between points -/

/-- Before the first point the class's invariant (every scoped buffer at anything); afterwards the accumulator at what
    the point before left, the other scoped buffers at anything, the generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM1_0 fullShare ((outsAt1 V c n hn).2) ∗ others1 c) ∗ (∃ r, prngReg c r)) := rfl
theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 512 := lt_of_lt_of_eq t.isLt (show cfg1.N = 512 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold accA; (try dsimp only)
      by_cases hz : t.val = 0
      · rw [PhiS_castSucc V c t, PhiS_zero V c _ _ hz, PhiA1_eq]
        iintro ⟨⟨⟨HS0, Hoth⟩, Hg⟩, Ho, ⟨%d0, H0⟩, ⟨%d1, H1⟩, ⟨%d2, H2⟩, ⟨%d3, H3⟩⟩
        iapply ((runA c t ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c t _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runA c t ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c t _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 16 = 15
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold outC accC; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runC c t (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverC c t _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverC c t _ _ _ _ _ _)
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold accB; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runB c t (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverB c t _ _ _ _ _ _)
            iexact Hoth
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 512 := N_1; omega), PhiA1_eq]
  iintro ⟨⟨HS0, Hoth⟩, Hg⟩
  isplitl [HS0 Hoth]
  · isplitl [HS0]; · iexists _; iexact HS0
    iexact Hoth
  iexact Hg

end Cert.Kernel.Hand

end
-- ==== Proof.K.Whole.lean ====
/-
  The whole program, from the launch to the return.

  @main is five segments: a reshape of x to rows, the weight kernel, a reshape of the bias to one row, the matmul
  kernel, a reshape of the result back to three axes. The contents of every unscoped buffer are followed through the
  segments as a fold from the launch memory: a host stretch applies its operations, a kernel region replaces its
  windows' arrays by what its write-backs leave. Each region is entered from "every unscoped buffer at the fold's
  contents" and left at the next stage of the fold; the accumulator of the second region lives in that region's own
  invariant. The launch over the segments then says: every weakly fair execution terminates, and every final memory
  holds each unscoped buffer at the last stage of the fold — from which both the arguments (never written: they walk back
  through the fold to the launch memory) and the result are read.
-/
import proofs.«172782_j53618371723762_1_alg».proof.Proof.K.Region0
import proofs.«172782_j53618371723762_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- Core `c`'s buffers at launch. -/
abbrev W0 : Dev nD → Valuation τ sig (Elt F) := fun c b => m ((c : Dev nD), b)
/-- After x is reshaped to rows (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the bias is reshaped to one row (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the result is reshaped back (the return). -/
abbrev W5 : Dev nD → Valuation τ sig (Elt F) := fun c => StableHlo.after hostOps2 (W4 m c)

/-! ## No segment writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W3 m c (Proc.devRef .tc main_arg0) := W4_of_ne m c main_arg0 (by decide)
    _ = W2 m c (Proc.devRef .tc main_arg0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m c (Proc.devRef .tc main_arg0) := W2_of_ne m c main_arg0 (by decide)
    _ = W0 m c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W3 m c (Proc.devRef .tc main_arg1) := W4_of_ne m c main_arg1 (by decide)
    _ = W2 m c (Proc.devRef .tc main_arg1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W3 m c (Proc.devRef .tc main_arg2) := W4_of_ne m c main_arg2 (by decide)
    _ = W2 m c (Proc.devRef .tc main_arg2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W3 m c (Proc.devRef .tc main_arg3) := W4_of_ne m c main_arg3 (by decide)
    _ = W2 m c (Proc.devRef .tc main_arg3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W3 m c (Proc.devRef .tc main_arg4) := W4_of_ne m c main_arg4 (by decide)
    _ = W2 m c (Proc.devRef .tc main_arg4) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m c (Proc.devRef .tc main_arg4) := W2_of_ne m c main_arg4 (by decide)
    _ = W0 m c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The weight kernel's region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hwaits := Pipeline.hwaits_of_owed_zero _ _ _ _ L lv 0 fun _ _ => rfl
  X c := iprop(∃ r, prngReg c r)
  Y c := iprop(∃ r, prngReg c r)
  Z c := Pipeline.unscopedRest (Ix := Unit) (Name := ℕ) (U := UR sig nD τ) (Lvl := ℕ) spec0 c (V1 m c)
  hbody c := (body_obligation0 (V1 m) c).loose
  pre c := iprop(StableHlo.held (c : Thread nD τ) (Pipeline.ucRefs τ sig) (W1 m c) ∗ R c)
  post c := iprop(StableHlo.held (c : Thread nD τ) (Pipeline.ucRefs τ sig) (W2 m c) ∗ R c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul kernel's region: entered from every unscoped buffer at `W3`, left at `W4`; the accumulator is among the
    scoped buffers the launch hands the region's invariant, and is given back with them. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hwaits := Pipeline.hwaits_of_owed_zero _ _ _ _ L lv 1 fun _ _ => rfl
  X c := iprop(∃ r, prngReg c r)
  Y c := iprop(∃ r, prngReg c r)
  Z c := Pipeline.unscopedRest (Ix := Unit) (Name := ℕ) (U := UR sig nD τ) (Lvl := ℕ) spec1 c (V3 m c)
  hbody c := (body_obligation1 (V3 m) c).loose
  pre c := iprop(StableHlo.held (c : Thread nD τ) (Pipeline.ucRefs τ sig) (W3 m c) ∗ R c)
  post c := iprop(StableHlo.held (c : Thread nD τ) (Pipeline.ucRefs τ sig) (W4 m c) ∗ R c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    refine BIBase.Entails.trans ?_ (hin1 (V3 m) c)
    unfold Pipeline.ΦA
    iintro ⟨Hp, -, Hr⟩
    isplitl [Hr]; · iexact Hr
    iexact Hp
  hout c := by
    rw [Pipeline.ownSems0_none, show (pdats m 1 c).Φ (Fin.last _) = (dat1 (V3 m) c).Φ (Fin.last cfg1.N) from rfl]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m),
    .host (hseg hostOps2 hostOps2_sub ops2_fresh (W4 m)) ]
theorem main_run (c : Dev nD) : main (F := F) c = Pipeline.Seg.run (segs m) := (main_chain c).trans (by chain_rfl)

set_option backward.isDefEq.respectTransparency.types false in
/-- THE RUN. From any memory with zero counters, every weakly fair execution of @main terminates, nothing faulting,
    and every final memory holds each unscoped buffer of every core at the fold's last stage. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W5 m c))
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Hand

end
-- ==== Proof.KI.Region0.lean ====
/-
  The first kernel region: the adapted weight, block by block.

  The grid is 8 × 8; at point (i, j) the body reads block (i, j) of the base weight (512 × 512), row block i of the
  tall factor (512 × 16) and column block j of the wide factor (16 × 512), and stores one whole 512 × 512 block: the
  base block plus the scaled product of the two factor blocks, narrowed to half precision. Nothing is kept from point
  to point, so what the body leaves in the output's buffer is one function of the three input blocks, and every input
  buffer holds its block at every point whether or not it was fetched there (an unfetched block has not moved).
  Everything is stated at the contents `V` the region finds in the arrays.
-/
import proofs.«172782_j53618371723762_1_alg».proof.Proof.Gen.KernelIdeal.Launch
import proofs.«172782_j53618371723762_1_alg».proof.Proof.Gen.KernelIdeal.Skeleton
import proofs.«172782_j53618371723762_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The base weight's buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The tall factor's buffer holds its row block at every point (fetched only when the row block changes). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The wide factor's buffer holds its column block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rW0 : Rect S512x512 := Rect.unit (s := S512x512) ![0, 0] S512x512.size inb_S512x512_S512x512_0_0
abbrev rB0 : Rect S512x16 := Rect.unit (s := S512x16) ![0, 0] S512x16.size inb_S512x16_S512x16_0_0
abbrev rA0 : Rect S16x512 := Rect.unit (s := S16x512) ![0, 0] S16x512.size inb_S16x512_S16x512_0_0

/-- The output's buffer after the body, from the three input blocks: its one store. -/
def out0_3 (x0 : Vec F S512x512 .f32) (x1 : Vec F S512x16 .f32) (x2 : Vec F S16x512 .f32) : Vec F S512x512 .bf16 :=
  View.canon [⟨rW0, k0_pay1 (View.ld x1 rB0) (View.ld x2 rA0) (View.ld x0 rW0)⟩]

/-- The one store covers the buffer. -/
theorem cover0_3 (p0 : Vec F S512x512 .bf16) (y : S512x512.Idx) :
    ∃ pc ∈ ([⟨rW0, p0⟩] : List (View.Piece (Elt F) S512x512 .bf16)), y ∈ pc.1.set :=
  View.cover_of_tiled [⟨rW0, p0⟩] S512x512.size (by rfl) y

set_option maxHeartbeats 1000000 in
/-- The body on whole staging buffers, the inputs' at their contents and the output's at anything, runs to the
    continuation holding the inputs' as they were and the output's at `out0_3` of them. -/
theorem sound_kernel0 (c : Dev nD) (E : Set ℕ) (i : grid0.Coords)
    (arg2 : Memref sig .tc .vmem S512x512 .f32) (harg2 : arg2.IsWhole) (arg3 : Memref sig .tc .vmem S512x16 .f32) (harg3 : arg3.IsWhole)
    (arg4 : Memref sig .tc .vmem S16x512 .f32) (harg4 : arg4.IsWhole) (arg5 : Memref sig .tc .vmem S512x512 .bf16) (harg5 : arg5.IsWhole)
    (x0 : Vec F S512x512 .f32) (x1 : Vec F S512x16 .f32) (x2 : Vec F S16x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__weight_kernel i arg2 harg2 arg3 harg3 arg4 harg4 arg5 harg5) K := by
  simp only [cc0__weight_kernel_eq_skeleton]; unfold cc0__weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The arrays as the region finds them; after the body each input's buffer at its block and the output's at
    `out0_3` of the blocks; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Defs.lean ====
/-
  The second kernel region: what its three control cases share.

  The grid is 16 × 2 × 16, the last axis the blocked contraction. The body zeroes the accumulator when the contraction
  coordinate is 0, adds the product of the point's two blocks to it at every point, and when the coordinate is 15
  stores accumulator plus bias into the output's buffer. So a point is in one of three cases (first, middle, last of a
  run of sixteen), the output window is idle except in the last, and the accumulator — a scratch buffer of the kernel's
  own — is carried from point to point. Here: the two conditions in closed form over the grid, where the windows are
  idle, the memrefs the body is called with, and the scoped buffers the kernel does not touch.
-/
import proofs.«172782_j53618371723762_1_alg».proof.Proof.Gen.KernelIdeal.Launch
import proofs.«172782_j53618371723762_1_alg».proof.Proof.Gen.KernelIdeal.Skeleton
import proofs.«172782_j53618371723762_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- "The contraction coordinate is 0", as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "The contraction coordinate is 15". -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_3 : View sig .tc .vmem S1024x2048 .f32 := (Memref.whole cc1_stg3_0 : Memref sig .tc .vmem S1024x2048 .f32).view
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x2048 .f32 := Memref.whole cc1_scratch0
abbrev VS1_0 : View sig .tc .vmem S1024x2048 .f32 := scM1_0.view

/-! ## The scoped buffers beside the accumulator -/

/-- The other region's eight staging buffers, each whole at some contents: this kernel never touches them. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scoped buffers no window of this region stages: the accumulator first, then the others. -/
theorem scopedRest1_acc_first (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 c) :=
  Pipeline.scopedRest_eq_of_list spec1 c [cc1_scratch0, cc0_stg0_0, cc0_stg0_1, cc0_stg1_0, cc0_stg1_1, cc0_stg2_0, cc0_stg2_1, cc0_stg3_0, cc0_stg3_1] (by decide) (by decide)

/-- The class invariant with the accumulator as a memref owned at some contents. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA; rw [scopedRest1_acc_first]; simp only [scM1_0, owns_whole]; try rfl

end Cert.KernelIdeal.Hand

end
-- ==== Proof.KI.Run1A.lean ====
/-
  The second region's body at the FIRST point of a run of sixteen: the accumulator is zeroed, then the point's product
  is added to it; the output's buffer is not touched (and is handed back as found). What the accumulator ends with is
  left as the list of stores the run finds.
-/
import proofs.«172782_j53618371723762_1_alg».proof.Proof.KI.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.Run1B.lean ====
/-
  The second region's body at a MIDDLE point of a run of sixteen: the point's product is added to the accumulator as
  the point before left it; the output's buffer is not touched. What the accumulator ends with is left as the list of
  stores the run finds.
-/
import proofs.«172782_j53618371723762_1_alg».proof.Proof.KI.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.Run1C.lean ====
/-
  The second region's body at the LAST point of a run of sixteen: the point's product is added to the accumulator as the
  point before left it, and accumulator plus bias is stored into the output's buffer. What the two buffers end with is
  left as the lists of stores the run finds.
-/
import proofs.«172782_j53618371723762_1_alg».proof.Proof.KI.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.Region1.lean ====
/-
  The second kernel region, point by point.

  What each of the three cases leaves in the accumulator (and, in the last, in the output's buffer) is read back from
  the stores its run found; `outsAt1` follows the accumulator through the grid by recursion on the point — the first
  point of a run of sixteen starts from nothing, every other one from what the point before left —; the region's
  invariant holds the accumulator at that value between points; the proof data names each input's buffer at its block
  and the output's at `outsAt1`; and the body obligation is a case split on the two closed forms.
  Everything is stated at the contents `V` the region finds in the arrays.
-/
import proofs.«172782_j53618371723762_1_alg».proof.Proof.KI.Run1A
import proofs.«172782_j53618371723762_1_alg».proof.Proof.KI.Run1B
import proofs.«172782_j53618371723762_1_alg».proof.Proof.KI.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight's buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias's buffer holds its block at every point (fetched only when the column block changes). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

section Cases
variable (c : Dev nD) (t : Fin cfg1.N)

/-- The first case's run at point `t`'s memrefs. -/
abbrev runA (h0 : cond1_0 (grid1.coords t)) (h1 : ¬cond1_1 (grid1.coords t)) (x0 : Vec F S1024x256 .f32) (x1 : Vec F S2048x256 .bf16) (x2 : Vec F S1x2048 .f32) :=
  kernelRun1_A (F := F) c (grid1.coords t) (ms1_0 t) (hs1_0 t) (ms1_1 t) (hs1_1 t) (ms1_2 t) (hs1_2 t) (ms1_3 t) (hs1_3 t) scM1_0 (Memref.isWhole_whole _) h0 h1 x0 x1 x2
/-- The middle case's. -/
abbrev runB (h0 : ¬cond1_0 (grid1.coords t)) (h1 : ¬cond1_1 (grid1.coords t)) (x0 : Vec F S1024x256 .f32) (x1 : Vec F S2048x256 .bf16) (x2 : Vec F S1x2048 .f32) (xs0 : Vec F S1024x2048 .f32) :=
  kernelRun1_B (F := F) c (grid1.coords t) (ms1_0 t) (hs1_0 t) (ms1_1 t) (hs1_1 t) (ms1_2 t) (hs1_2 t) (ms1_3 t) (hs1_3 t) scM1_0 (Memref.isWhole_whole _) h0 h1 x0 x1 x2 xs0
/-- The last case's. -/
abbrev runC (h0 : ¬cond1_0 (grid1.coords t)) (h1 : cond1_1 (grid1.coords t)) (x0 : Vec F S1024x256 .f32) (x1 : Vec F S2048x256 .bf16) (x2 : Vec F S1x2048 .f32) (xs0 : Vec F S1024x2048 .f32) :=
  kernelRun1_C (F := F) c (grid1.coords t) (ms1_0 t) (hs1_0 t) (ms1_1 t) (hs1_1 t) (ms1_2 t) (hs1_2 t) (ms1_3 t) (hs1_3 t) scM1_0 (Memref.isWhole_whole _) h0 h1 x0 x1 x2 xs0

/-- The first case stores nothing into the output's buffer: a placeholder nothing consults. -/
def outA (h0 : cond1_0 (grid1.coords t)) (h1 : ¬cond1_1 (grid1.coords t)) (x0 : Vec F S1024x256 .f32) (x1 : Vec F S2048x256 .bf16) (x2 : Vec F S1x2048 .f32) : Vec F S1024x2048 .f32 :=
  VO1_3.read (Elt F) (VO1_3.writes (Elt F) VO1_3.junk (runA c t h0 h1 x0 x1 x2).1)
/-- Its stores into the accumulator cover it. -/
theorem scoverA (h0 : cond1_0 (grid1.coords t)) (h1 : ¬cond1_1 (grid1.coords t)) (x0 : Vec F S1024x256 .f32) (x1 : Vec F S2048x256 .bf16) (x2 : Vec F S1x2048 .f32) (y : S1024x2048.Idx) :
    ∃ pc ∈ (runA c t h0 h1 x0 x1 x2).2.1, y ∈ pc.1.set :=
  View.cover_of_tiledL (runA c t h0 h1 x0 x1 x2).2.1 S1024x2048.size (by sl_kernel_rfl) y
/-- What it leaves in the accumulator. -/
def accA (h0 : cond1_0 (grid1.coords t)) (h1 : ¬cond1_1 (grid1.coords t)) (x0 : Vec F S1024x256 .f32) (x1 : Vec F S2048x256 .bf16) (x2 : Vec F S1x2048 .f32) : Vec F S1024x2048 .f32 :=
  VS1_0.read (Elt F) (VS1_0.writes (Elt F) VS1_0.junk (runA c t h0 h1 x0 x1 x2).2.1)

/-- The middle case stores nothing into the output's buffer either. -/
def outB (h0 : ¬cond1_0 (grid1.coords t)) (h1 : ¬cond1_1 (grid1.coords t)) (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (runB c t h0 h1 x0 x1 x2 xs0).1)
theorem scoverB (h0 : ¬cond1_0 (grid1.coords t)) (h1 : ¬cond1_1 (grid1.coords t)) (x0 : Vec F S1024x256 .f32) (x1 : Vec F S2048x256 .bf16) (x2 : Vec F S1x2048 .f32) (xs0 : Vec F S1024x2048 .f32) (y : S1024x2048.Idx) :
    ∃ pc ∈ (runB c t h0 h1 x0 x1 x2 xs0).2.1, y ∈ pc.1.set :=
  View.cover_of_tiledL (runB c t h0 h1 x0 x1 x2 xs0).2.1 S1024x2048.size (by sl_kernel_rfl) y
def accB (h0 : ¬cond1_0 (grid1.coords t)) (h1 : ¬cond1_1 (grid1.coords t)) (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (runB c t h0 h1 x0 x1 x2 xs0).2.1)

/-- The last case's one store into the output's buffer covers it. -/
theorem coverC (h0 : ¬cond1_0 (grid1.coords t)) (h1 : cond1_1 (grid1.coords t)) (x0 : Vec F S1024x256 .f32) (x1 : Vec F S2048x256 .bf16) (x2 : Vec F S1x2048 .f32) (xs0 : Vec F S1024x2048 .f32) (y : S1024x2048.Idx) :
    ∃ pc ∈ (runC c t h0 h1 x0 x1 x2 xs0).1, y ∈ pc.1.set :=
  View.cover_of_tiledL (runC c t h0 h1 x0 x1 x2 xs0).1 S1024x2048.size (by sl_kernel_rfl) y
/-- What the last case leaves in the output's buffer. -/
def outC (h0 : ¬cond1_0 (grid1.coords t)) (h1 : cond1_1 (grid1.coords t)) (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (runC c t h0 h1 x0 x1 x2 xs0).1)
theorem scoverC (h0 : ¬cond1_0 (grid1.coords t)) (h1 : cond1_1 (grid1.coords t)) (x0 : Vec F S1024x256 .f32) (x1 : Vec F S2048x256 .bf16) (x2 : Vec F S1x2048 .f32) (xs0 : Vec F S1024x2048 .f32) (y : S1024x2048.Idx) :
    ∃ pc ∈ (runC c t h0 h1 x0 x1 x2 xs0).2.1, y ∈ pc.1.set :=
  View.cover_of_tiledL (runC c t h0 h1 x0 x1 x2 xs0).2.1 S1024x2048.size (by sl_kernel_rfl) y
def accC (h0 : ¬cond1_0 (grid1.coords t)) (h1 : cond1_1 (grid1.coords t)) (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (runC c t h0 h1 x0 x1 x2 xs0).2.1)

end Cases

/-! ## The accumulation, point by point -/

/-- What the output's buffer and the accumulator hold after the body at position `n`: the case the closed forms
    select there, at the point's blocks, over the accumulator the point before left. -/
def outsAt1 (c : Dev nD) : (n : ℕ) → n < cfg1.N → Vec F S1024x2048 .f32 × Vec F S1024x2048 .f32
  | 0, hn => (outA c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), accA c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (outA c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), accA c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (outC c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, accC c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outB c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, accB c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (outA c t ((hcond1_0 t).mpr h0) (fun h => h1 ((hcond1_1 t).mp h)) (iblk1 V c 0 t) (iblk1 V c 1 t) (iblk1 V c 2 t),
      accA c t ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (outB c t (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      accB c t (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      accC c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator between points -/

/-- Before the first point the class's invariant (every scoped buffer at anything); afterwards the accumulator at what
    the point before left, the other scoped buffers at anything, the generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM1_0 fullShare ((outsAt1 V c n hn).2) ∗ others1 c) ∗ (∃ r, prngReg c r)) := rfl
theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 512 := lt_of_lt_of_eq t.isLt (show cfg1.N = 512 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold accA; (try dsimp only)
      by_cases hz : t.val = 0
      · rw [PhiS_castSucc V c t, PhiS_zero V c _ _ hz, PhiA1_eq]
        iintro ⟨⟨⟨HS0, Hoth⟩, Hg⟩, Ho, ⟨%d0, H0⟩, ⟨%d1, H1⟩, ⟨%d2, H2⟩, ⟨%d3, H3⟩⟩
        iapply ((runA c t ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c t _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runA c t ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA c t _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 16 = 15
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold outC accC; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runC c t (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverC c t _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverC c t _ _ _ _ _ _)
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold accB; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runB c t (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverB c t _ _ _ _ _ _)
            iexact Hoth
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 512 := N_1; omega), PhiA1_eq]
  iintro ⟨⟨HS0, Hoth⟩, Hg⟩
  isplitl [HS0 Hoth]
  · isplitl [HS0]; · iexists _; iexact HS0
    iexact Hoth
  iexact Hg

end Cert.KernelIdeal.Hand

end
-- ==== Proof.KI.Whole.lean ====
/-
  The whole program, from the launch to the return.

  @main is five segments: a reshape of x to rows, the weight kernel, a reshape of the bias to one row, the matmul
  kernel, a reshape of the result back to three axes. The contents of every unscoped buffer are followed through the
  segments as a fold from the launch memory: a host stretch applies its operations, a kernel region replaces its
  windows' arrays by what its write-backs leave. Each region is entered from "every unscoped buffer at the fold's
  contents" and left at the next stage of the fold; the accumulator of the second region lives in that region's own
  invariant. The launch over the segments then says: every weakly fair execution terminates, and every final memory
  holds each unscoped buffer at the last stage of the fold — from which both the arguments (never written: they walk back
  through the fold to the launch memory) and the result are read.
-/
import proofs.«172782_j53618371723762_1_alg».proof.Proof.KI.Region0
import proofs.«172782_j53618371723762_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- Core `c`'s buffers at launch. -/
abbrev W0 : Dev nD → Valuation τ sig (Elt F) := fun c b => m ((c : Dev nD), b)
/-- After x is reshaped to rows (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the bias is reshaped to one row (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the result is reshaped back (the return). -/
abbrev W5 : Dev nD → Valuation τ sig (Elt F) := fun c => StableHlo.after hostOps2 (W4 m c)

/-! ## No segment writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W3 m c (Proc.devRef .tc main_arg0) := W4_of_ne m c main_arg0 (by decide)
    _ = W2 m c (Proc.devRef .tc main_arg0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m c (Proc.devRef .tc main_arg0) := W2_of_ne m c main_arg0 (by decide)
    _ = W0 m c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W3 m c (Proc.devRef .tc main_arg1) := W4_of_ne m c main_arg1 (by decide)
    _ = W2 m c (Proc.devRef .tc main_arg1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W3 m c (Proc.devRef .tc main_arg2) := W4_of_ne m c main_arg2 (by decide)
    _ = W2 m c (Proc.devRef .tc main_arg2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W3 m c (Proc.devRef .tc main_arg3) := W4_of_ne m c main_arg3 (by decide)
    _ = W2 m c (Proc.devRef .tc main_arg3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W3 m c (Proc.devRef .tc main_arg4) := W4_of_ne m c main_arg4 (by decide)
    _ = W2 m c (Proc.devRef .tc main_arg4) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = W1 m c (Proc.devRef .tc main_arg4) := W2_of_ne m c main_arg4 (by decide)
    _ = W0 m c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The weight kernel's region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hwaits := Pipeline.hwaits_of_owed_zero _ _ _ _ L lv 0 fun _ _ => rfl
  X c := iprop(∃ r, prngReg c r)
  Y c := iprop(∃ r, prngReg c r)
  Z c := Pipeline.unscopedRest (Ix := Unit) (Name := ℕ) (U := UR sig nD τ) (Lvl := ℕ) spec0 c (V1 m c)
  hbody c := (body_obligation0 (V1 m) c).loose
  pre c := iprop(StableHlo.held (c : Thread nD τ) (Pipeline.ucRefs τ sig) (W1 m c) ∗ R c)
  post c := iprop(StableHlo.held (c : Thread nD τ) (Pipeline.ucRefs τ sig) (W2 m c) ∗ R c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul kernel's region: entered from every unscoped buffer at `W3`, left at `W4`; the accumulator is among the
    scoped buffers the launch hands the region's invariant, and is given back with them. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hwaits := Pipeline.hwaits_of_owed_zero _ _ _ _ L lv 1 fun _ _ => rfl
  X c := iprop(∃ r, prngReg c r)
  Y c := iprop(∃ r, prngReg c r)
  Z c := Pipeline.unscopedRest (Ix := Unit) (Name := ℕ) (U := UR sig nD τ) (Lvl := ℕ) spec1 c (V3 m c)
  hbody c := (body_obligation1 (V3 m) c).loose
  pre c := iprop(StableHlo.held (c : Thread nD τ) (Pipeline.ucRefs τ sig) (W3 m c) ∗ R c)
  post c := iprop(StableHlo.held (c : Thread nD τ) (Pipeline.ucRefs τ sig) (W4 m c) ∗ R c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    refine BIBase.Entails.trans ?_ (hin1 (V3 m) c)
    unfold Pipeline.ΦA
    iintro ⟨Hp, -, Hr⟩
    isplitl [Hr]; · iexact Hr
    iexact Hp
  hout c := by
    rw [Pipeline.ownSems0_none, show (pdats m 1 c).Φ (Fin.last _) = (dat1 (V3 m) c).Φ (Fin.last cfg1.N) from rfl]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m),
    .host (hseg hostOps2 hostOps2_sub ops2_fresh (W4 m)) ]
theorem main_run (c : Dev nD) : main (F := F) c = Pipeline.Seg.run (segs m) := (main_chain c).trans (by chain_rfl)

set_option backward.isDefEq.respectTransparency.types false in
/-- THE RUN. From any memory with zero counters, every weakly fair execution of @main terminates, nothing faulting,
    and every final memory holds each unscoped buffer of every core at the fold's last stage. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W5 m c))
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Hand

end
-- ==== Proof.KI.Blocks1.lean ====
/-
  The second call's blocks, read at an index.

  The grid is 16 × 2 × 16; point t has coordinates (t / 32, (t / 16) % 2, t % 16). The activation window moves with
  the first and third coordinates in blocks of 1024 × 256, the weight window with the second and third in blocks of
  2048 × 256, the bias window with the second in blocks of 1 × 2048, and the output window with the first and second
  in blocks of 1024 × 2048. An element of a block sits in its array, on each axis, at the block index times the
  block's extent plus its coordinate inside the block. The output's blocks tile its array, and the block holding
  an index (r, c) is written back at the last point of the run of sixteen with coordinates (r / 1024, c / 2048).
-/
import proofs.«172782_j53618371723762_1_alg».proof.Proof.Gen.KernelIdeal.Launch
import proofs.«172782_j53618371723762_1_alg».proof.Proof.Gen.KernelIdeal.Points
import Idealize.ShloMosaic.Lib.Pipeline.Value
import Idealize.ShloMosaic.Lib.ValueIdx

noncomputable section

namespace Cert.Lora.Blk1

open Cert.KernelIdeal Cert.KernelIdeal.Gen Idealize.ShloMosaic Idealize.ShloMosaic.TcCoe Idealize.SL.Sem
open Idealize.ShloMosaic.ValueIdx

variable {F : FTy → Type} [FloatOps F]

/-- The grid has 512 points. -/
theorem t_lt (t : Fin cfg1.N) : t.val < 512 := lt_of_lt_of_eq t.isLt N_1

/-- The printed index maps at point t, decided over the grid: the block indices are the point's coordinates. -/
theorem idx_facts1 : ∀ t : Fin cfg1.N, win1_0.index t (0 : Fin 2) = t.val / 32
    ∧ win1_0.index t (1 : Fin 2) = t.val % 16
    ∧ win1_1.index t (0 : Fin 2) = (t.val / 16) % 2
    ∧ win1_1.index t (1 : Fin 2) = t.val % 16
    ∧ win1_2.index t (0 : Fin 2) = 0
    ∧ win1_2.index t (1 : Fin 2) = (t.val / 16) % 2
    ∧ win1_3.index t (0 : Fin 2) = t.val / 32
    ∧ win1_3.index t (1 : Fin 2) = (t.val / 16) % 2 :=
  (by decide +kernel : ∀ t : Fin grid1.N, _)

/-- The activation block at t: rows (t / 32) * 1024 + p, columns (t % 16) * 256 + q. -/
theorem read_blk1_0 (t : Fin cfg1.N) (X : S16384x4096.Idx → Elt F .f32) (p : Fin 1024) (q : Fin 256) :
    ((cfg1.win 0).blk t).view.read (Elt F) X (ix2 p q)
      = X (ix2 (⟨(t.val / 32) * 1024 + p.val, by have := t_lt t; omega⟩ : Fin 16384)
            (⟨(t.val % 16) * 256 + q.val, by omega⟩ : Fin 4096)) := by
  obtain ⟨e0, e1, -⟩ := idx_facts1 t
  show X (((cfg1.win 0).blk t).view.emb (ix2 p q)) = _
  refine congrArg X (funext fun a => Fin.ext ?_)
  match a with
  | ⟨0, _⟩ => show win1_0.index t (0 : Fin 2) * 1024 + 1 * p.val = (t.val / 32) * 1024 + p.val; rw [e0]; omega
  | ⟨1, _⟩ => show win1_0.index t (1 : Fin 2) * 256 + 1 * q.val = (t.val % 16) * 256 + q.val; rw [e1]; omega

/-- The weight block at t: rows ((t / 16) % 2) * 2048 + p, columns (t % 16) * 256 + q. -/
theorem read_blk1_1 (t : Fin cfg1.N) (X : S4096x4096.Idx → Elt F .bf16) (p : Fin 2048) (q : Fin 256) :
    ((cfg1.win 1).blk t).view.read (Elt F) X (ix2 p q)
      = X (ix2 (⟨((t.val / 16) % 2) * 2048 + p.val, by omega⟩ : Fin 4096)
            (⟨(t.val % 16) * 256 + q.val, by omega⟩ : Fin 4096)) := by
  obtain ⟨-, -, e2, e3, -⟩ := idx_facts1 t
  show X (((cfg1.win 1).blk t).view.emb (ix2 p q)) = _
  refine congrArg X (funext fun a => Fin.ext ?_)
  match a with
  | ⟨0, _⟩ => show win1_1.index t (0 : Fin 2) * 2048 + 1 * p.val = ((t.val / 16) % 2) * 2048 + p.val; rw [e2]; omega
  | ⟨1, _⟩ => show win1_1.index t (1 : Fin 2) * 256 + 1 * q.val = (t.val % 16) * 256 + q.val; rw [e3]; omega

/-- The bias block at t: row 0, columns ((t / 16) % 2) * 2048 + q. -/
theorem read_blk1_2 (t : Fin cfg1.N) (X : S1x4096.Idx → Elt F .f32) (q : Fin 2048) :
    ((cfg1.win 2).blk t).view.read (Elt F) X (ix2 (0 : Fin 1) q)
      = X (ix2 (0 : Fin 1) (⟨((t.val / 16) % 2) * 2048 + q.val, by omega⟩ : Fin 4096)) := by
  obtain ⟨-, -, -, -, e4, e5, -⟩ := idx_facts1 t
  show X (((cfg1.win 2).blk t).view.emb (ix2 (0 : Fin 1) q)) = _
  refine congrArg X (funext fun a => Fin.ext ?_)
  match a with
  | ⟨0, _⟩ => show win1_2.index t (0 : Fin 2) * 1 + 1 * 0 = 0; rw [e4]
  | ⟨1, _⟩ => show win1_2.index t (1 : Fin 2) * 2048 + 1 * q.val = ((t.val / 16) % 2) * 2048 + q.val; rw [e5]; omega

/-- The output block at t: rows (t / 32) * 1024 + p, columns ((t / 16) % 2) * 2048 + q. -/
theorem read_blk1_3 (t : Fin cfg1.N) (X : S16384x4096.Idx → Elt F .f32) (p : Fin 1024) (q : Fin 2048) :
    ((cfg1.win 3).blk t).view.read (Elt F) X (ix2 p q)
      = X (ix2 (⟨(t.val / 32) * 1024 + p.val, by have := t_lt t; omega⟩ : Fin 16384)
            (⟨((t.val / 16) % 2) * 2048 + q.val, by omega⟩ : Fin 4096)) := by
  obtain ⟨-, -, -, -, -, -, e6, e7⟩ := idx_facts1 t
  show X (((cfg1.win 3).blk t).view.emb (ix2 p q)) = _
  refine congrArg X (funext fun a => Fin.ext ?_)
  match a with
  | ⟨0, _⟩ => show win1_3.index t (0 : Fin 2) * 1024 + 1 * p.val = (t.val / 32) * 1024 + p.val; rw [e6]; omega
  | ⟨1, _⟩ => show win1_3.index t (1 : Fin 2) * 2048 + 1 * q.val = ((t.val / 16) % 2) * 2048 + q.val; rw [e7]; omega

/-- An index of the output array is in point t's block iff each coordinate is in the block's range on its axis. -/
theorem mem_blk1_3 (t : Fin cfg1.N) (i : S16384x4096.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v3).slice (win1_3.rect t)).set ↔ _
  rw [View.set_slice_whole, Rect.mem_set_unit]
  exact Iff.rfl

/-- The same, with the block indices as the point's coordinates. -/
theorem mem_blk1_3_iff (t : Fin cfg1.N) (i : S16384x4096.Idx) :
    i ∈ ((cfg1.win 3).blk t).view.set ↔ ((t.val / 32) * 1024 ≤ (i 0).val ∧ (i 0).val < (t.val / 32) * 1024 + 1024)
      ∧ (((t.val / 16) % 2) * 2048 ≤ (i 1).val ∧ (i 1).val < ((t.val / 16) % 2) * 2048 + 2048) := by
  obtain ⟨-, -, -, -, -, -, e6, e7⟩ := idx_facts1 t
  rw [mem_blk1_3]
  constructor
  · intro h
    have b0 : win1_3.index t (0 : Fin 2) * 1024 ≤ (i 0).val ∧ (i 0).val < win1_3.index t (0 : Fin 2) * 1024 + 1024 := h 0
    have b1 : win1_3.index t (1 : Fin 2) * 2048 ≤ (i 1).val ∧ (i 1).val < win1_3.index t (1 : Fin 2) * 2048 + 2048 := h 1
    rw [e6] at b0; rw [e7] at b1
    exact ⟨b0, b1⟩
  · rintro ⟨b0, b1⟩ a
    match a with
    | ⟨0, _⟩ => show win1_3.index t (0 : Fin 2) * 1024 ≤ (i 0).val ∧ (i 0).val < win1_3.index t (0 : Fin 2) * 1024 + 1024; rw [e6]; exact b0
    | ⟨1, _⟩ => show win1_3.index t (1 : Fin 2) * 2048 ≤ (i 1).val ∧ (i 1).val < win1_3.index t (1 : Fin 2) * 2048 + 2048; rw [e7]; exact b1

/-- The point that writes back the block holding the index j: the last of the run of sixteen points with
    coordinates (j 0 / 1024, j 1 / 2048). -/
def coverPt (j : S16384x4096.Idx) : Fin cfg1.N :=
  ⟨(j 0).val / 1024 * 32 + (j 1).val / 2048 * 16 + 15,
    lt_of_lt_of_eq (by have h0 : (j 0).val < 16384 := (j 0).isLt; have h1 : (j 1).val < 4096 := (j 1).isLt; omega) N_1.symm⟩

theorem coverPt_val (j : S16384x4096.Idx) : (coverPt j).val = (j 0).val / 1024 * 32 + (j 1).val / 2048 * 16 + 15 := rfl

/-- That point writes the output window back. -/
theorem flush_coverPt (j : S16384x4096.Idx) : (cfg1.win 3).flush (coverPt j) = true :=
  (flush1_3 (coverPt j)).mpr (by rw [coverPt_val]; omega)

/-- Its block holds j. -/
theorem mem_coverPt (j : S16384x4096.Idx) : j ∈ ((cfg1.win 3).blk (coverPt j)).view.set := by
  have h0 : (j 0).val < 16384 := (j 0).isLt
  have h1 : (j 1).val < 4096 := (j 1).isLt
  rw [mem_blk1_3_iff, coverPt_val]
  omega

/-- Every index of the output array is in the block of a point that writes back. -/
theorem cover1_3 (j : S16384x4096.Idx) :
    ∃ t : Fin cfg1.N, (cfg1.win 3).flush t = true ∧ j ∈ ((cfg1.win 3).blk t).view.set :=
  ⟨coverPt j, flush_coverPt j, mem_coverPt j⟩

end Cert.Lora.Blk1

end
-- ==== Proof.Spec.lean ====
/-
  The function both programs compute, written once on the extended reals.

  A linear layer whose weight carries a rank-16 correction: the adapted weight at (o, i) is
  W o i + (Σ_r B o r · A r i) · 16, and the output at (b, s, o) is Σ_i x b s i · weight o i + bias o.
  Nothing here mentions either program: the shapes are literal, the indices are built from their coordinates.
-/
import Idealize.ShloMosaic.PureOps.Ideal
import Idealize.ShloMosaic.Lib.ValueIdx

noncomputable section

open scoped BigOperators

namespace Cert.Lora

open Idealize.ShloMosaic Idealize.ShloMosaic.ValueIdx

/-- The scale, as both programs spell it: the single-precision word of 16. -/
abbrev c16 : EReal := Ideal.ofBits .f32 0x41800000#32

/-- The adapted weight at (o, i): the base weight plus the scaled product of the two thin factors. -/
def weight (W : FVec Ideal ⟨2, ![4096, 4096]⟩ .f32) (A : FVec Ideal ⟨2, ![16, 4096]⟩ .f32)
    (B : FVec Ideal ⟨2, ![4096, 16]⟩ .f32) (o i : Fin 4096) : EReal :=
  W (ix2 o i) + (∑ r : Fin 16, B (ix2 o r) * A (ix2 r i)) * c16

/-- The layer's output at (b, s, o): row (b, s) of x against row o of the adapted weight, plus the bias at o. -/
def out (x : FVec Ideal ⟨3, ![4, 4096, 4096]⟩ .f32) (W : FVec Ideal ⟨2, ![4096, 4096]⟩ .f32)
    (A : FVec Ideal ⟨2, ![16, 4096]⟩ .f32) (B : FVec Ideal ⟨2, ![4096, 16]⟩ .f32) (bias : FVec Ideal ⟨1, ![4096]⟩ .f32)
    (b : Fin 4) (s : Fin 4096) (o : Fin 4096) : EReal :=
  (∑ i : Fin 4096, x (ix3 b s i) * weight W A B o i) + bias (ix1 o)

/-- The whole output array, index by index. -/
def G (x : FVec Ideal ⟨3, ![4, 4096, 4096]⟩ .f32) (W : FVec Ideal ⟨2, ![4096, 4096]⟩ .f32)
    (A : FVec Ideal ⟨2, ![16, 4096]⟩ .f32) (B : FVec Ideal ⟨2, ![4096, 16]⟩ .f32) (bias : FVec Ideal ⟨1, ![4096]⟩ .f32) :
    FVec Ideal ⟨3, ![4, 4096, 4096]⟩ .f32 :=
  fun j => out x W A B bias (j 0) (j 1) (j 2)

theorem G_apply (x : FVec Ideal ⟨3, ![4, 4096, 4096]⟩ .f32) (W : FVec Ideal ⟨2, ![4096, 4096]⟩ .f32)
    (A : FVec Ideal ⟨2, ![16, 4096]⟩ .f32) (B : FVec Ideal ⟨2, ![4096, 16]⟩ .f32) (bias : FVec Ideal ⟨1, ![4096]⟩ .f32)
    (b : Fin 4) (s : Fin 4096) (o : Fin 4096) :
    G x W A B bias (ix3 b s o) = out x W A B bias b s o := rfl

end Cert.Lora

end
-- ==== Proof.LibPlainDot.lean ====
/-
  A matrix product of the plain kind — rows × contraction times contraction × columns — read at an index, at the
  ideal instance.

  For the dimension numbers `DotDims.plain M K N` both the vector unit's matmul into a zero accumulator and the host's
  dot_general are, at output index (a, b), the sum over k of l (a, k) · r (k, b) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of such a product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx,
        l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.Payloads.lean ====
/-
  The kernel's arithmetic, read at an index, on the extended reals.

  Each value the two kernel bodies store is, coordinate by coordinate, a closed expression in the values they loaded:
  the first body stores the base weight plus sixteen times a rank-16 product; the second body stores zero, then the
  accumulator plus a block of x · weightᵀ (the right operand contracted on its last axis), and last the accumulator
  plus the bias row repeated down the rows. On the extended reals a change of float format and a shape cast to the
  same shape are both the identity, so nothing else remains.
-/
import proofs.«172782_j53618371723762_1_alg».proof.Proof.Gen.KernelIdeal.Skeleton
import proofs.«172782_j53618371723762_1_alg».proof.Proof.Spec
import proofs.«172782_j53618371723762_1_alg».proof.Proof.LibPlainDot
import proofs.«172782_j53618371723762_1_alg».proof.Proof.LibTransposedDot
import Idealize.ShloMosaic.Lib.Pipeline.Value
import Idealize.ShloMosaic.Lib.ValueLayout

noncomputable section

open scoped BigOperators

namespace Cert.Lora.Pay

open Idealize.ShloMosaic Idealize.ShloMosaic.ValueIdx Cert.KernelIdeal Cert.KernelIdeal.Facts₀

variable [Cert.KernelIdeal.Facts]

/-- The first body's stored value at (p, q): the base weight there plus sixteen times row p of the left thin factor
    against column q of the right one. -/
theorem pay0 (v0 : Vec Ideal S512x16 .f32) (v2 : Vec Ideal S16x512 .f32) (v5 : Vec Ideal S512x512 .f32) (p q : Fin 512) :
    Gen.k0_pay1 (F := Ideal) v0 v2 v5 (ix2 p q)
      = v5 (ix2 p q) + Cert.Lora.c16 * ∑ r : Fin 16, v0 (ix2 p r) * v2 (ix2 r q) := by
  refine congrArg (fun t : EReal => v5 (ix2 p q) + Cert.Lora.c16 * t) ?_
  exact PlainDot.matmul_plain (M := 512) (K := 16) (N := 512) dot_S512x16_S16x512_S512x512_1_0_0_1_n_n rfl none
    (truncf .bf16 (v0 : FVec Ideal S512x16 .f32) bitsLt_bf16_f32) (truncf .bf16 (v2 : FVec Ideal S16x512 .f32) bitsLt_bf16_f32) p q

/-- The value the second body stores at the first step of the contraction: zero everywhere. -/
theorem pay1 (j : S1024x2048.Idx) : Gen.k1_pay1 (F := Ideal) j = 0 := by
  unfold Gen.k1_pay1
  rw [shapeCast_self]
  exact Ideal.ofBits_zero_f32

/-- The second body's accumulator update at (p, q): the accumulator there plus row p of the x block against row q of
    the weight block. -/
theorem pay2 (v3 : Vec Ideal S1024x256 .f32) (v6 : Vec Ideal S1024x2048 .f32) (v7 : Vec Ideal S2048x256 .bf16)
    (p : Fin 1024) (q : Fin 2048) :
    Gen.k1_pay2 (F := Ideal) v3 v6 v7 (ix2 p q) = v6 (ix2 p q) + ∑ kk : Fin 256, v3 (ix2 p kk) * v7 (ix2 q kk) := by
  unfold Gen.k1_pay2
  rw [shapeCast_self, shapeCast_self, shapeCast_self]
  refine congrArg (fun t : EReal => v6 (ix2 p q) + t) ?_
  exact TransposedDot.matmul_transposedRhs (M := 1024) (K := 256) (N := 2048) dot_S1024x256_S2048x256_S1024x2048_1_1_0_0_n_n rfl none
    (truncf .bf16 (v3 : FVec Ideal S1024x256 .f32) bitsLt_bf16_f32) (v7 : FVec Ideal S2048x256 .bf16) p q

/-- The second body's last store at (p, q): the accumulator there plus the bias row at q. -/
theorem pay3 (v17 : Vec Ideal S1024x2048 .f32) (v18 : Vec Ideal S1x2048 .f32) (p : Fin 1024) (q : Fin 2048) :
    Gen.k1_pay3 (F := Ideal) v17 v18 (ix2 p q) = v17 (ix2 p q) + v18 (ix2 (0 : Fin 1) q) := by
  unfold Gen.k1_pay3
  rw [shapeCast_self]
  refine congrArg (fun t : EReal => v17 (ix2 p q) + t) ?_
  exact broadcastTo_1b_ab_apply (a := 1024) (b := 2048) v18 broadcasts_S1x2048_S1024x2048 p q

end Cert.Lora.Pay

end
-- ==== Proof.BlockSum.lean ====
/-
  Two facts about sums on the extended reals.

  A sum over 4096 consecutive terms equals the sum of its 16 consecutive blocks of 256 terms: addition on
  the extended reals is commutative and associative, so this is re-indexing k = kb * 256 + kk only.
  An accumulator that starts at zero and adds one term per step holds, after n steps, the sum of the first n terms.
-/
import Idealize.ShloMosaic.PureOps.Ideal

open scoped BigOperators

namespace Cert.Lora

/-- The sum over 16 blocks of 256 consecutive terms is the sum over all 4096 terms. -/
theorem sum_blocks (f : ℕ → EReal) :
    (∑ kb ∈ Finset.range 16, ∑ kk : Fin 256, f (kb * 256 + kk.val)) = ∑ k : Fin 4096, f k.val := by
  rw [Finset.sum_range (fun kb => ∑ kk : Fin 256, f (kb * 256 + kk.val))]
  -- the pair (kb, kk) sits at position kk + 256 * kb
  have h : (∑ k : Fin (16 * 256), f k.val) = ∑ p : Fin 16 × Fin 256, f (finProdFinEquiv p).val :=
    (Equiv.sum_comp finProdFinEquiv (fun k : Fin (16 * 256) => f k.val)).symm
  rw [show (∑ k : Fin 4096, f k.val) = ∑ k : Fin (16 * 256), f k.val from rfl, h, Fintype.sum_prod_type]
  refine Finset.sum_congr rfl fun kb _ => Finset.sum_congr rfl fun kk _ => ?_
  congr 1
  show kb.val * 256 + kk.val = kk.val + 256 * kb.val
  omega

/-- An accumulator starting at zero that adds `g n` at step `n` holds the sum of the first `n` terms. -/
theorem acc_eq_sum (g : ℕ → EReal) (a : ℕ → EReal) (h0 : a 0 = 0) (hs : ∀ n, a (n + 1) = a n + g n) (n : ℕ) :
    a n = ∑ kb ∈ Finset.range n, g kb := by
  induction n with
  | zero => simpa using h0
  | succ n ih => rw [hs, ih, Finset.sum_range_succ]

end Cert.Lora
-- ==== Proof.Spec2d.lean ====
/-
  The two intermediate arrays of the kernel's program, as functions on the extended reals.

  The first region leaves the adapted weight as a matrix: at (n, k) the base weight plus 16 times the product of the two
  thin factors (the scale on the LEFT, as that kernel multiplies). The second leaves, at row m and column n, the
  contraction of row m of the flattened input with row n of that matrix, plus the bias at n.
-/
import proofs.«172782_j53618371723762_1_alg».proof.Proof.Spec

noncomputable section

open scoped BigOperators

namespace Cert.Lora

open Idealize.ShloMosaic Idealize.ShloMosaic.ValueIdx

/-- The adapted weight as the first kernel computes it. -/
def weightK (W : FVec Ideal ⟨2, ![4096, 4096]⟩ .f32) (B : FVec Ideal ⟨2, ![4096, 16]⟩ .f32) (A : FVec Ideal ⟨2, ![16, 4096]⟩ .f32) :
    FVec Ideal ⟨2, ![4096, 4096]⟩ .bf16 :=
  fun j => W (ix2 (j 0) (j 1)) + c16 * ∑ r : Fin 16, B (ix2 (j 0) r) * A (ix2 r (j 1))

theorem weightK_apply (W : FVec Ideal ⟨2, ![4096, 4096]⟩ .f32) (B : FVec Ideal ⟨2, ![4096, 16]⟩ .f32) (A : FVec Ideal ⟨2, ![16, 4096]⟩ .f32)
    (n k : Fin 4096) : weightK W B A (ix2 n k) = W (ix2 n k) + c16 * ∑ r : Fin 16, B (ix2 n r) * A (ix2 r k) := rfl

/-- The second kernel's output over the flattened rows. -/
def G2d (X : FVec Ideal ⟨2, ![16384, 4096]⟩ .f32) (Wt : FVec Ideal ⟨2, ![4096, 4096]⟩ .bf16) (Bi : FVec Ideal ⟨2, ![1, 4096]⟩ .f32) :
    FVec Ideal ⟨2, ![16384, 4096]⟩ .f32 :=
  fun j => (∑ k : Fin 4096, X (ix2 (j 0) k) * Wt (ix2 (j 1) k)) + Bi (ix2 (0 : Fin 1) (j 1))

theorem G2d_apply (X : FVec Ideal ⟨2, ![16384, 4096]⟩ .f32) (Wt : FVec Ideal ⟨2, ![4096, 4096]⟩ .bf16) (Bi : FVec Ideal ⟨2, ![1, 4096]⟩ .f32)
    (m : Fin 16384) (n : Fin 4096) :
    G2d X Wt Bi (ix2 m n) = (∑ k : Fin 4096, X (ix2 m k) * Wt (ix2 n k)) + Bi (ix2 (0 : Fin 1) n) := rfl

end Cert.Lora

end
-- ==== Proof.KI.Value1.lean ====
/-
  The second kernel region's result array, as one function of the arrays it finds.

  At a point whose contraction coordinate is j the accumulator holds, at (p, q) of its block, the sum over the first
  j + 1 column blocks of the products of row (row block · 1024 + p) of the flattened input with row
  (column block · 2048 + q) of the adapted weight: the first point of a run starts the sum from zero, every later one adds
  its block to what the point before left. At the sixteenth point the sum runs over all sixteen blocks of 256 — the
  whole contraction over 4096, by regrouping a finite sum on the extended reals — and that plus the bias is what is
  written back. The write-backs' blocks tile the array, so the array ends holding that function everywhere.
-/
import proofs.«172782_j53618371723762_1_alg».proof.Proof.KI.Region1
import proofs.«172782_j53618371723762_1_alg».proof.Proof.KI.Blocks1
import proofs.«172782_j53618371723762_1_alg».proof.Proof.Payloads
import proofs.«172782_j53618371723762_1_alg».proof.Proof.BlockSum
import proofs.«172782_j53618371723762_1_alg».proof.Proof.Spec2d
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each case's stores amount to (at any float instance) -/

theorem hz : (![0, 0] : Fin 2 → Nat) = fun _ => 0 := by funext a; match a with | ⟨0, _⟩ => rfl | ⟨1, _⟩ => rfl

/-- The first case leaves in the accumulator the point's product added to zero. -/
theorem accA_eq (c : Dev nD) (t : Fin cfg1.N) (h0 : cond1_0 (grid1.coords t)) (h1 : ¬cond1_1 (grid1.coords t))
    (x0 : Vec F S1024x256 .f32) (x1 : Vec F S2048x256 .bf16) (x2 : Vec F S1x2048 .f32) :
    accA (F := F) c t h0 h1 x0 x1 x2 = k1_pay2 x0 (k1_pay1 (F := F)) x1 := by
  unfold accA
  rw [View.read_writes_eq_canon _ _ _ (scoverA c t h0 h1 x0 x1 x2)]
  unfold runA kernelRun1_A
  dsimp only
  sl_unfold_words
  rw [View.canon_cons_unit_zero hz]
  simp only [View.readAt_eq_ld, Memref.IsWhole.read_unread, View.ld_unit_zero (S := S1024x256) hz, View.ld_unit_zero (S := S2048x256) hz]
  rw [View.readCov_unit_zero (S := S1024x2048) _ hz]

/-- A middle case leaves the point's product added to what the accumulator held. -/
theorem accB_eq (c : Dev nD) (t : Fin cfg1.N) (h0 : ¬cond1_0 (grid1.coords t)) (h1 : ¬cond1_1 (grid1.coords t))
    (x0 : Vec F S1024x256 .f32) (x1 : Vec F S2048x256 .bf16) (x2 : Vec F S1x2048 .f32) (xs0 : Vec F S1024x2048 .f32) :
    accB (F := F) c t h0 h1 x0 x1 x2 xs0 = k1_pay2 x0 xs0 x1 := by
  unfold accB
  rw [View.read_writes_eq_canon _ _ _ (scoverB c t h0 h1 x0 x1 x2 xs0)]
  unfold runB kernelRun1_B
  dsimp only
  sl_unfold_words
  rw [View.canon_unit_zero hz]
  simp only [View.readAt_eq_ld, Memref.IsWhole.read_unread, View.ld_unit_zero (S := S1024x256) hz, View.ld_unit_zero (S := S2048x256) hz, View.ld_unit_zero (S := S1024x2048) hz]
  exact congrArg (fun z => k1_pay2 x0 z x1) ((Memref.isWhole_whole cc1_scratch0).read_unread xs0)

/-- So does the last case, -/
theorem accC_eq (c : Dev nD) (t : Fin cfg1.N) (h0 : ¬cond1_0 (grid1.coords t)) (h1 : cond1_1 (grid1.coords t))
    (x0 : Vec F S1024x256 .f32) (x1 : Vec F S2048x256 .bf16) (x2 : Vec F S1x2048 .f32) (xs0 : Vec F S1024x2048 .f32) :
    accC (F := F) c t h0 h1 x0 x1 x2 xs0 = k1_pay2 x0 xs0 x1 := by
  unfold accC
  rw [View.read_writes_eq_canon _ _ _ (scoverC c t h0 h1 x0 x1 x2 xs0)]
  unfold runC kernelRun1_C
  dsimp only
  sl_unfold_words
  rw [View.canon_unit_zero hz]
  simp only [View.readAt_eq_ld, Memref.IsWhole.read_unread, View.ld_unit_zero (S := S1024x256) hz, View.ld_unit_zero (S := S2048x256) hz, View.ld_unit_zero (S := S1024x2048) hz]
  exact congrArg (fun z => k1_pay2 x0 z x1) ((Memref.isWhole_whole cc1_scratch0).read_unread xs0)

/-- and it stores into the output's buffer that sum plus the bias row. -/
theorem outC_eq (c : Dev nD) (t : Fin cfg1.N) (h0 : ¬cond1_0 (grid1.coords t)) (h1 : cond1_1 (grid1.coords t))
    (x0 : Vec F S1024x256 .f32) (x1 : Vec F S2048x256 .bf16) (x2 : Vec F S1x2048 .f32) (xs0 : Vec F S1024x2048 .f32) :
    outC (F := F) c t h0 h1 x0 x1 x2 xs0 = k1_pay3 (k1_pay2 x0 xs0 x1) x2 := by
  unfold outC
  rw [View.read_writes_eq_canon _ _ _ (coverC c t h0 h1 x0 x1 x2 xs0)]
  unfold runC kernelRun1_C
  dsimp only
  sl_unfold_words
  rw [View.canon_unit_zero hz]
  simp only [View.readAt_eq_ld, Memref.IsWhole.read_unread, View.ld_unit_zero (S := S1024x256) hz, View.ld_unit_zero (S := S2048x256) hz, View.ld_unit_zero (S := S1x2048) hz, View.ld_unit_zero (S := S1024x2048) hz]
  rw [View.readCov_unit_zero (S := S1024x2048) _ hz]
  exact congrArg (fun z => k1_pay3 (k1_pay2 x0 z x1) x2) ((Memref.isWhole_whole cc1_scratch0).read_unread xs0)

end Cert.KernelIdeal.Hand

namespace Cert.Lora.V1

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Lora

variable (V : (c : Dev nD) → (b : Ref sig .tc) → Buf (Elt Ideal) ((c : Thread nD τ).loc b)) (c : Dev nD)

/-- Row `r` of the flattened input as a function of the column's number (zero past the last column). -/
def xrow (X : FVec Ideal S16384x4096 .f32) (r : Fin 16384) (k : ℕ) : EReal := if h : k < 4096 then X (ix2 r ⟨k, h⟩) else 0
/-- Row `n` of the adapted weight likewise. -/
def wrow (Wt : FVec Ideal S4096x4096 .bf16) (n : Fin 4096) (k : ℕ) : EReal := if h : k < 4096 then Wt (ix2 n ⟨k, h⟩) else 0
/-- The part of the contraction that column block `kb` contributes. -/
def blockProd (X : FVec Ideal S16384x4096 .f32) (Wt : FVec Ideal S4096x4096 .bf16) (r : Fin 16384) (n : Fin 4096) (kb : ℕ) : EReal :=
  ∑ kk : Fin 256, xrow X r (kb * 256 + kk.val) * wrow Wt n (kb * 256 + kk.val)

/-- The point's three input blocks, at their literal types. -/
abbrev xb (t : Fin cfg1.N) : Vec Ideal S1024x256 .f32 := iblk1 V c 0 t
abbrev wb (t : Fin cfg1.N) : Vec Ideal S2048x256 .bf16 := iblk1 V c 1 t
abbrev bb (t : Fin cfg1.N) : Vec Ideal S1x2048 .f32 := iblk1 V c 2 t

/-- The product of the point's two blocks at (p, q) is the contribution of the point's column block. -/
theorem prod_at (t : Fin cfg1.N) (p : Fin 1024) (q : Fin 2048) (row : Fin 16384) (col : Fin 4096)
    (hrow : row.val = t.val / 32 * 1024 + p.val) (hcol : col.val = t.val / 16 % 2 * 2048 + q.val) :
    ∑ kk : Fin 256, xb V c t (ix2 p kk) * wb V c t (ix2 q kk)
      = blockProd (V c main_v0) (V c main_v1) row col (t.val % 16) := by
  obtain ⟨rv, hr⟩ := row; obtain ⟨cv, hc⟩ := col
  dsimp only at hrow hcol; subst hrow; subst hcol
  unfold blockProd
  refine Finset.sum_congr rfl fun kk _ => ?_
  have hk : t.val % 16 * 256 + kk.val < 4096 := by have := kk.isLt; omega
  unfold xrow wrow
  rw [dif_pos hk, dif_pos hk]
  exact congrArg₂ (· * ·) (Blk1.read_blk1_0 (F := Ideal) t (V c main_v0) p kk) (Blk1.read_blk1_1 (F := Ideal) t (V c main_v1) q kk)

/-! ### The accumulator and the stored block as whole functions of the point's blocks -/

theorem acc_A (t : Fin cfg1.N) (h0 : t.val % 16 = 0) :
    (outsAt1 V c t.val t.isLt).2 = k1_pay2 (F := Ideal) (xb V c t) (k1_pay1 (F := Ideal)) (wb V c t) := by
  have h1 : ¬t.val % 16 = 15 := by omega
  rewrite [outsAt1_A V c t h0 h1]
  dsimp only
  exact accA_eq (F := Ideal) c t ((hcond1_0 t).mpr h0) (fun h => h1 ((hcond1_1 t).mp h)) (iblk1 V c 0 t) (iblk1 V c 1 t) (iblk1 V c 2 t)

theorem acc_BC (t : Fin cfg1.N) (h0 : ¬t.val % 16 = 0) :
    (outsAt1 V c t.val t.isLt).2 = k1_pay2 (F := Ideal) (xb V c t) (outsAt1 V c (t.val - 1) (Nat.lt_of_le_of_lt (Nat.sub_le _ _) t.isLt)).2 (wb V c t) := by
  by_cases h1 : t.val % 16 = 15
  · rewrite [outsAt1_C V c t h0 h1]
    dsimp only
    exact accC_eq (F := Ideal) c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rewrite [outsAt1_B V c t h0 h1]
    dsimp only
    exact accB_eq (F := Ideal) c t (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

theorem out_C (t : Fin cfg1.N) (h0 : ¬t.val % 16 = 0) (h1 : t.val % 16 = 15) :
    (outsAt1 V c t.val t.isLt).1 = k1_pay3 (F := Ideal) (k1_pay2 (F := Ideal) (xb V c t) (outsAt1 V c (t.val - 1) (Nat.lt_of_le_of_lt (Nat.sub_le _ _) t.isLt)).2 (wb V c t)) (bb V c t) := by
  rewrite [outsAt1_C V c t h0 h1]
  dsimp only
  exact outC_eq (F := Ideal) c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

/-! ### Index by index -/

/-- The first point of a run leaves its own block's contribution. -/
theorem acc_first (t : Fin cfg1.N) (h0 : t.val % 16 = 0) (p : Fin 1024) (q : Fin 2048) (row : Fin 16384) (col : Fin 4096)
    (hrow : row.val = t.val / 32 * 1024 + p.val) (hcol : col.val = t.val / 16 % 2 * 2048 + q.val) :
    (outsAt1 V c t.val t.isLt).2 (ix2 p q) = blockProd (V c main_v0) (V c main_v1) row col (t.val % 16) := by
  rw [acc_A V c t h0]
  refine (Pay.pay2 (xb V c t) (k1_pay1 (F := Ideal)) (wb V c t) p q).trans ?_
  rw [Pay.pay1 (ix2 p q), zero_add]
  exact prod_at V c t p q row col hrow hcol

/-- Every other point adds its block's contribution to what the point before left. -/
theorem acc_step (t : Fin cfg1.N) (h0 : ¬t.val % 16 = 0) (p : Fin 1024) (q : Fin 2048) (row : Fin 16384) (col : Fin 4096)
    (hrow : row.val = t.val / 32 * 1024 + p.val) (hcol : col.val = t.val / 16 % 2 * 2048 + q.val) :
    (outsAt1 V c t.val t.isLt).2 (ix2 p q)
      = (outsAt1 V c (t.val - 1) (Nat.lt_of_le_of_lt (Nat.sub_le _ _) t.isLt)).2 (ix2 p q) + blockProd (V c main_v0) (V c main_v1) row col (t.val % 16) := by
  rw [acc_BC V c t h0]
  refine (Pay.pay2 (xb V c t) (outsAt1 V c (t.val - 1) (Nat.lt_of_le_of_lt (Nat.sub_le _ _) t.isLt)).2 (wb V c t) p q).trans ?_
  rw [prod_at V c t p q row col hrow hcol]

/-- THE ACCUMULATOR after the point with contraction coordinate j: the first j + 1 blocks' contributions. -/
theorem acc_inv : ∀ (n : ℕ) (hn : n < cfg1.N) (p : Fin 1024) (q : Fin 2048) (row : Fin 16384) (col : Fin 4096),
    row.val = n / 32 * 1024 + p.val → col.val = n / 16 % 2 * 2048 + q.val →
    (outsAt1 V c n hn).2 (ix2 p q) = ∑ kb ∈ Finset.range (n % 16 + 1), blockProd (V c main_v0) (V c main_v1) row col kb := by
  intro n
  induction n with
  | zero =>
    intro hn p q row col hrow hcol
    rw [show (0 : ℕ) % 16 + 1 = 1 from rfl, Finset.sum_range_one]
    exact acc_first V c ⟨0, hn⟩ (Nat.zero_mod _) p q row col hrow hcol
  | succ n ih =>
    intro hn p q row col hrow hcol
    by_cases h0 : (n + 1) % 16 = 0
    · have hf := acc_first V c ⟨n + 1, hn⟩ h0 p q row col hrow hcol
      dsimp only at hf
      rw [h0] at hf
      rw [h0, show (0 : ℕ) + 1 = 1 from rfl, Finset.sum_range_one]
      exact hf
    · have hprev := ih (Nat.lt_of_succ_lt hn) p q row col (by omega) (by omega)
      have hs := acc_step V c ⟨n + 1, hn⟩ h0 p q row col hrow hcol
      dsimp only at hs
      rw [show (n + 1) % 16 = n % 16 + 1 from by omega] at hs ⊢
      rw [Finset.sum_range_succ, ← hprev]
      exact hs

/-- The whole contraction from its sixteen blocks. -/
theorem sum_all (X : FVec Ideal S16384x4096 .f32) (Wt : FVec Ideal S4096x4096 .bf16) (row : Fin 16384) (col : Fin 4096) :
    ∑ kb ∈ Finset.range 16, blockProd X Wt row col kb = ∑ k : Fin 4096, X (ix2 row k) * Wt (ix2 col k) := by
  unfold blockProd
  rw [Cert.Lora.sum_blocks (fun k => xrow X row k * wrow Wt col k)]
  refine Finset.sum_congr rfl fun k _ => ?_
  unfold xrow wrow
  rw [dif_pos k.isLt, dif_pos k.isLt]

/-- What the last point of a run stores at (p, q) of the output's block. -/
theorem out_at (t : Fin cfg1.N) (h1 : t.val % 16 = 15) (p : Fin 1024) (q : Fin 2048) (row : Fin 16384) (col : Fin 4096)
    (hrow : row.val = t.val / 32 * 1024 + p.val) (hcol : col.val = t.val / 16 % 2 * 2048 + q.val) :
    (outsAt1 V c t.val t.isLt).1 (ix2 p q) = G2d (V c main_v0) (V c main_v1) (V c main_v2) (ix2 row col) := by
  have h0 : ¬t.val % 16 = 0 := by omega
  have hacc := acc_inv V c t.val t.isLt p q row col hrow hcol
  rw [h1, show (15 : ℕ) + 1 = 16 from rfl, sum_all] at hacc
  have hv : (outsAt1 V c t.val t.isLt).1 (ix2 p q) = (outsAt1 V c t.val t.isLt).2 (ix2 p q) + bb V c t (ix2 (0 : Fin 1) q) := by
    rw [out_C V c t h0 h1, acc_BC V c t h0]
    exact Pay.pay3 (k1_pay2 (F := Ideal) (xb V c t) (outsAt1 V c (t.val - 1) (Nat.lt_of_le_of_lt (Nat.sub_le _ _) t.isLt)).2 (wb V c t)) (bb V c t) p q
  rw [hv, hacc, G2d_apply]
  refine congrArg (_ + ·) ?_
  obtain ⟨cv, hc⟩ := col
  dsimp only at hcol; subst hcol
  exact Blk1.read_blk1_2 (F := Ideal) t (V c main_v2) q

/-- WHAT A WRITING POINT WRITES BACK is its block of the function. -/
theorem flushed_eq (t : Fin cfg1.N) (h1 : t.val % 16 = 15) :
    (dat1 (F := Ideal) V c).flushed 3 t
      = ((cfg1.win 3).blk t).view.read (Elt Ideal) (G2d (V c main_v0) (V c main_v1) (V c main_v2)) := by
  show (cfg1.win 3).cut (grid1.coords t) ((dat1 (F := Ideal) V c).after 3 t) = _
  rw [after1_3]
  funext (y : S1024x2048.Idx)
  have ht := Blk1.t_lt t
  have hp : (y 0).val < 1024 := idx2_lt0 y
  have hq : (y 1).val < 2048 := idx2_lt1 y
  refine (congrArg (outsAt1 V c t.val t.isLt).1 (eq_ix2 y)).trans ?_
  refine (out_at V c t h1 (y 0) (y 1) ⟨t.val / 32 * 1024 + (y 0).val, by omega⟩ ⟨t.val / 16 % 2 * 2048 + (y 1).val, by omega⟩ rfl rfl).trans ?_
  refine Eq.trans ?_ (congrArg (((cfg1.win 3).blk t).view.read (Elt Ideal) (G2d (V c main_v0) (V c main_v1) (V c main_v2))) (eq_ix2 y)).symm
  exact (Blk1.read_blk1_3 (F := Ideal) t (G2d (V c main_v0) (V c main_v1) (V c main_v2)) (y 0) (y 1)).symm

/-- THE RESULT ARRAY after the region. -/
theorem final1 :
    (dat1 (F := Ideal) V c).arrAt 3 cfg1.N = G2d (V c main_v0) (V c main_v1) (V c main_v2) :=
  (dat1 (F := Ideal) V c).arrAt_eq_of_cover 3 (G2d (V c main_v0) (V c main_v1) (V c main_v2))
    (fun t hf => flushed_eq V c t ((flush1_3 t).mp hf)) Blk1.cover1_3

end Cert.Lora.V1

end
-- ==== Proof.KI.Weight0Value.lean ====
/-
  The first region's output array after the whole region: the adapted weight, as one function of the three argument arrays.

  The grid is 8 × 8 and point t = 8 i + j stores block (i, j) of the output, every point writing its block back; the
  512 × 512 blocks tile the 4096 × 4096 array. At a point the three loaded blocks are block (i, j) of the base weight,
  row block i of the tall factor and column block j of the wide factor, so the stored block is block (i, j) of ONE
  whole-array function: at (n, k), the base weight there plus sixteen times row n of the tall factor against column k
  of the wide one. An element of a block sits in its array at block index × block size + its coordinate in the block.
-/
import proofs.«172782_j53618371723762_1_alg».proof.Proof.KI.Region0
import proofs.«172782_j53618371723762_1_alg».proof.Proof.Payloads
import Idealize.ShloMosaic.Lib.Pipeline.Value
import Idealize.ShloMosaic.Lib.ValueIdx

noncomputable section

open scoped BigOperators

namespace Cert.Lora.W0

open Cert.KernelIdeal Cert.KernelIdeal.Gen
open Idealize.ShloMosaic Idealize.ShloMosaic.TcCoe Idealize.ShloMosaic.ValueIdx Idealize.SL.Sem
open Idealize.ShloMosaic.Pipeline (Dat)

/-- The adapted weight as one array: at (n, k) the base weight plus sixteen times Σ_r B (n, r) · A (r, k). -/
def weightK (W : FVec Ideal S4096x4096 .f32) (B : FVec Ideal S4096x16 .f32) (A : FVec Ideal S16x4096 .f32) :
    FVec Ideal S4096x4096 .bf16 :=
  fun j => W j + Cert.Lora.c16 * ∑ r : Fin 16, B (ix2 (j 0) r) * A (ix2 r (j 1))

theorem weightK_apply (W : FVec Ideal S4096x4096 .f32) (B : FVec Ideal S4096x16 .f32) (A : FVec Ideal S16x4096 .f32)
    (n k : Fin 4096) :
    weightK W B A (ix2 n k) = W (ix2 n k) + Cert.Lora.c16 * ∑ r : Fin 16, B (ix2 n r) * A (ix2 r k) := rfl

/-- One element of one block: if the three loaded blocks agree with the arrays where the block sits, the stored
    element is the adapted weight there. -/
theorem block_value (W : FVec Ideal S4096x4096 .f32) (B : FVec Ideal S4096x16 .f32) (A : FVec Ideal S16x4096 .f32)
    (x0 : Vec Ideal S512x512 .f32) (x1 : Vec Ideal S512x16 .f32) (x2 : Vec Ideal S16x512 .f32)
    (p q : Fin 512) (n k : Fin 4096)
    (h0 : x0 (ix2 p q) = W (ix2 n k))
    (h1 : ∀ r : Fin 16, x1 (ix2 p r) = B (ix2 n r))
    (h2 : ∀ r : Fin 16, x2 (ix2 r q) = A (ix2 r k)) :
    Gen.k0_pay1 (F := Ideal) x1 x2 x0 (ix2 p q) = weightK W B A (ix2 n k) :=
  (Cert.Lora.Pay.pay0 x1 x2 x0 p q).trans
    (congrArg₂ (fun a b : EReal => a + Cert.Lora.c16 * b) h0
      (Finset.sum_congr rfl fun r _ => congrArg₂ (fun a b : EReal => a * b) (h1 r) (h2 r)))

theorem hz : (![0, 0] : Fin 2 → Nat) = fun _ => 0 := funext fun a => by fin_cases a <;> rfl

/-- The printed index maps, decided over the grid: point t is block row t / 8 and block column t % 8; the base
    weight and the output move with both, the tall factor with the row only, the wide factor with the column only. -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

variable (V : (c : Dev nD) → (b : Ref sig .tc) → Buf (Elt Ideal) ((c : Thread nD τ).loc b))

/-- What point t's body stores at y of its block is the adapted weight at the place of y in the output array. -/
theorem point_value (c : Dev nD) (t : Fin cfg0.N) (y : S512x512.Idx) :
    Gen.k0_pay1 (F := Ideal) (Cert.KernelIdeal.Hand.iblk0 V c 1 t) (Cert.KernelIdeal.Hand.iblk0 V c 2 t)
        (Cert.KernelIdeal.Hand.iblk0 V c 0 t) y
      = weightK (V c main_arg1) (V c main_arg3) (V c main_arg2) (((cfg0.win 3).blk t).view.emb y) := by
  have ht : t.val < 64 := Nat.lt_of_lt_of_eq t.isLt N_0
  obtain ⟨e00, e01, e10, e11, e20, e21, e30, e31⟩ := idx_facts t
  have hp : (y 0).val < 512 := idx2_lt0 y
  have hq : (y 1).val < 512 := idx2_lt1 y
  have hemb : ((cfg0.win 3).blk t).view.emb y
      = ix2 (⟨t.val / 8 * 512 + (y 0).val, by omega⟩ : Fin 4096) (⟨t.val % 8 * 512 + (y 1).val, by omega⟩ : Fin 4096) := by
    funext a; apply Fin.ext
    match a with
    | ⟨0, _⟩ => show win0_3.index t (0 : Fin 2) * 512 + 1 * (y 0).val = t.val / 8 * 512 + (y 0).val; omega
    | ⟨1, _⟩ => show win0_3.index t (1 : Fin 2) * 512 + 1 * (y 1).val = t.val % 8 * 512 + (y 1).val; omega
  refine Eq.trans ?_ (congrArg (weightK (V c main_arg1) (V c main_arg3) (V c main_arg2)) hemb).symm
  refine (congrArg (Gen.k0_pay1 (F := Ideal) (Cert.KernelIdeal.Hand.iblk0 V c 1 t) (Cert.KernelIdeal.Hand.iblk0 V c 2 t)
      (Cert.KernelIdeal.Hand.iblk0 V c 0 t)) (eq_ix2 y)).trans ?_
  refine block_value (V c main_arg1) (V c main_arg3) (V c main_arg2) _ _ _ (y 0) (y 1) _ _ ?_ (fun r => ?_) (fun r => ?_)
  · show V c main_arg1 (((cfg0.win 0).blk t).view.emb (ix2 (y 0) (y 1))) = V c main_arg1 _
    refine congrArg (V c main_arg1) (funext fun a => Fin.ext ?_)
    match a with
    | ⟨0, _⟩ => show win0_0.index t (0 : Fin 2) * 512 + 1 * (y 0).val = t.val / 8 * 512 + (y 0).val; omega
    | ⟨1, _⟩ => show win0_0.index t (1 : Fin 2) * 512 + 1 * (y 1).val = t.val % 8 * 512 + (y 1).val; omega
  · show V c main_arg3 (((cfg0.win 1).blk t).view.emb (ix2 (y 0) r)) = V c main_arg3 _
    refine congrArg (V c main_arg3) (funext fun a => Fin.ext ?_)
    match a with
    | ⟨0, _⟩ => show win0_1.index t (0 : Fin 2) * 512 + 1 * (y 0).val = t.val / 8 * 512 + (y 0).val; omega
    | ⟨1, _⟩ => show win0_1.index t (1 : Fin 2) * 16 + 1 * r.val = r.val; omega
  · show V c main_arg2 (((cfg0.win 2).blk t).view.emb (ix2 r (y 1))) = V c main_arg2 _
    refine congrArg (V c main_arg2) (funext fun a => Fin.ext ?_)
    match a with
    | ⟨0, _⟩ => show win0_2.index t (0 : Fin 2) * 16 + 1 * r.val = r.val; omega
    | ⟨1, _⟩ => show win0_2.index t (1 : Fin 2) * 512 + 1 * (y 1).val = t.val % 8 * 512 + (y 1).val; omega

/-- WHAT POINT t WRITES BACK is block t of the adapted weight of the argument arrays as the region finds them. -/
theorem flushed_eq (c : Dev nD) (t : Fin cfg0.N) :
    (Cert.KernelIdeal.Hand.dat0 (F := Ideal) V c).flushed 3 t
      = ((cfg0.win 3).blk t).view.read (Elt Ideal) (weightK (V c main_arg1) (V c main_arg3) (V c main_arg2)) := by
  show (cfg0.win 3).cut (grid0.coords t) ((Cert.KernelIdeal.Hand.dat0 (F := Ideal) V c).after 3 t) = _
  rw [Cert.KernelIdeal.Hand.after0_3]
  unfold Cert.KernelIdeal.Hand.out0_3
  rw [View.canon_unit_zero hz]
  simp only [View.ld_unit_zero (S := S512x512) hz, View.ld_unit_zero (S := S512x16) hz, View.ld_unit_zero (S := S16x512) hz]
  funext y
  exact point_value V c t y

/-- An index of the array is in point t's block iff each coordinate is in the block's range on its axis. -/
theorem mem_blk (t : Fin cfg0.N) (i : S4096x4096.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v1).slice (win0_3.rect t)).set ↔ _
  rw [View.set_slice_whole, Rect.mem_set_unit]
  exact Iff.rfl

/-- Every index of the output array is in the block of the point 8 · (n / 512) + k / 512, which writes it back. -/
theorem cover (i : S4096x4096.Idx) :
    ∃ t : Fin cfg0.N, (cfg0.win 3).flush t = true ∧ i ∈ ((cfg0.win 3).blk t).view.set := by
  have h0 : (i 0).val < 4096 := idx2_lt0 i
  have h1 : (i 1).val < 4096 := idx2_lt1 i
  obtain ⟨t, tv⟩ : ∃ t : Fin cfg0.N, t.val = (i 0).val / 512 * 8 + (i 1).val / 512 :=
    ⟨⟨(i 0).val / 512 * 8 + (i 1).val / 512, Nat.lt_of_lt_of_eq (by omega) N_0.symm⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 512 ≤ (i 1).val ∧ (i 1).val < win0_3.index t (1 : Fin 2) * 512 + 512
    omega

/-- THE OUTPUT ARRAY after the region: the adapted weight of the three argument arrays as the region finds them. -/
theorem final0 (c : Dev nD) :
    (Cert.KernelIdeal.Hand.dat0 (F := Ideal) V c).arrAt 3 cfg0.N
      = weightK (V c main_arg1) (V c main_arg3) (V c main_arg2) :=
  (Cert.KernelIdeal.Hand.dat0 (F := Ideal) V c).arrAt_eq_of_cover 3 (weightK (V c main_arg1) (V c main_arg3) (V c main_arg2))
    (fun t _ => flushed_eq V c t) cover

end Cert.Lora.W0

end
-- ==== Proof.Layout.lean ====
/-
  The three reshapes between the rank-3 arrangement (b, s, ·) and the rank-2 arrangement (row, ·), read at an index.

  A reshape keeps the row-major position. Row b * 4096 + s of the [16384, 4096] arrangement is row (b, s) of the
  [4, 4096, 4096] one: both sit at position (b * 4096 + s) * 4096 + k. A vector of 4096 entries and the [1, 4096]
  array with the same entries agree at position o.
-/
import Idealize.ShloMosaic.Lib.Pipeline.Value
import Idealize.ShloMosaic.Lib.ValueIdx
import Idealize.ShloMosaic.Lib.ValueLayout
import Idealize.ShloMosaic.PureOps.Ideal

namespace Cert.Lora.Lay

open Idealize.ShloMosaic Idealize.ShloMosaic.ValueIdx

variable {α : Type}

/-- Rows: the [16384, 4096] view of a [4, 4096, 4096] array at row b * 4096 + s is the array at (b, s, ·). -/
theorem reshape_rows (x : (⟨3, ![4, 4096, 4096]⟩ : Shape).Idx → α)
    (h : (⟨3, ![4, 4096, 4096]⟩ : Shape).ShapeCasts ⟨2, ![16384, 4096]⟩) (b : Fin 4) (s : Fin 4096) (k : Fin 4096) :
    shapeCast ⟨2, ![16384, 4096]⟩ x h (ix2 (⟨b.val * 4096 + s.val, by omega⟩ : Fin 16384) k) = x (ix3 b s k) := by
  refine shapeCast_apply x h _ (ix3 b s k) ?_
  rw [Shape.rowMajor_val_three, Shape.rowMajor_val_two]
  rfl

/-- Rows, from the row: row m of the [16384, 4096] view is the array at (m / 4096, m % 4096, ·). -/
theorem reshape_rows_of_row (x : (⟨3, ![4, 4096, 4096]⟩ : Shape).Idx → α)
    (h : (⟨3, ![4, 4096, 4096]⟩ : Shape).ShapeCasts ⟨2, ![16384, 4096]⟩) (m : Fin 16384) (k : Fin 4096) :
    shapeCast ⟨2, ![16384, 4096]⟩ x h (ix2 m k)
      = x (ix3 (⟨m.val / 4096, by omega⟩ : Fin 4) (⟨m.val % 4096, by omega⟩ : Fin 4096) k) := by
  refine shapeCast_apply x h _ (ix3 (⟨m.val / 4096, by omega⟩ : Fin 4) (⟨m.val % 4096, by omega⟩ : Fin 4096) k) ?_
  rw [Shape.rowMajor_val_three, Shape.rowMajor_val_two]
  show (m.val / 4096 * 4096 + m.val % 4096) * 4096 + k.val = m.val * 4096 + k.val
  omega

/-- Back: the [4, 4096, 4096] view of a [16384, 4096] array at (b, s, o) is the array at row b * 4096 + s. -/
theorem reshape_back (y : (⟨2, ![16384, 4096]⟩ : Shape).Idx → α)
    (h : (⟨2, ![16384, 4096]⟩ : Shape).ShapeCasts ⟨3, ![4, 4096, 4096]⟩) (b : Fin 4) (s : Fin 4096) (o : Fin 4096) :
    shapeCast ⟨3, ![4, 4096, 4096]⟩ y h (ix3 b s o) = y (ix2 (⟨b.val * 4096 + s.val, by omega⟩ : Fin 16384) o) := by
  refine shapeCast_apply y h _ (ix2 (⟨b.val * 4096 + s.val, by omega⟩ : Fin 16384) o) ?_
  rw [Shape.rowMajor_val_three, Shape.rowMajor_val_two]
  rfl

/-- The bias: the [1, 4096] view of a vector of 4096 entries at (0, o) is the vector at o. -/
theorem reshape_bias (v : (⟨1, ![4096]⟩ : Shape).Idx → α)
    (h : (⟨1, ![4096]⟩ : Shape).ShapeCasts ⟨2, ![1, 4096]⟩) (o : Fin 4096) :
    shapeCast ⟨2, ![1, 4096]⟩ v h (ix2 (0 : Fin 1) o) = v (ix1 o) := by
  refine shapeCast_apply v h _ (ix1 o) ?_
  rw [Shape.rowMajor_val_one, Shape.rowMajor_val_two]
  show o.val = 0 * 4096 + o.val
  omega

end Cert.Lora.Lay
-- ==== Proof.Assemble.lean ====
/-
  The kernel's function over flattened rows, between the three reshapes, is the specification.

  Flatten x to rows (b, s) ↦ b * 4096 + s, contract each row with the rows of the adapted weight, add the bias seen
  as a one-row array, and fold the rows back: at (b, s, o) this is Σ_k x b s k · (W o k + 16 · Σ_r B o r · A r k) + bias o.
  The specification has the scale on the right of the inner sum; multiplication on the extended reals is commutative.
-/
import proofs.«172782_j53618371723762_1_alg».proof.Proof.Spec2d
import proofs.«172782_j53618371723762_1_alg».proof.Proof.Layout

noncomputable section

open scoped BigOperators

namespace Cert.Lora

open Idealize.ShloMosaic Idealize.ShloMosaic.ValueIdx

/-- Reshape to rows, contract with the adapted weight, add the bias, reshape back: the specification. -/
theorem assemble (x : FVec Ideal ⟨3, ![4, 4096, 4096]⟩ .f32) (W : FVec Ideal ⟨2, ![4096, 4096]⟩ .f32)
    (A : FVec Ideal ⟨2, ![16, 4096]⟩ .f32) (B : FVec Ideal ⟨2, ![4096, 16]⟩ .f32) (bias : FVec Ideal ⟨1, ![4096]⟩ .f32)
    (h1 : (⟨3, ![4, 4096, 4096]⟩ : Shape).ShapeCasts ⟨2, ![16384, 4096]⟩)
    (h2 : (⟨2, ![16384, 4096]⟩ : Shape).ShapeCasts ⟨3, ![4, 4096, 4096]⟩)
    (h3 : (⟨1, ![4096]⟩ : Shape).ShapeCasts ⟨2, ![1, 4096]⟩) :
    shapeCast ⟨3, ![4, 4096, 4096]⟩
        (G2d (shapeCast ⟨2, ![16384, 4096]⟩ x h1) (weightK W B A) (shapeCast ⟨2, ![1, 4096]⟩ bias h3)) h2
      = G x W A B bias := by
  funext j
  obtain ⟨b, s, o, rfl⟩ : ∃ b s o, j = ix3 b s o := ⟨j 0, j 1, j 2, eq_ix3 j⟩
  rw [Lay.reshape_back, G2d_apply, Lay.reshape_bias, G_apply]
  unfold out
  congr 1
  refine Finset.sum_congr rfl fun k _ => ?_
  rw [Lay.reshape_rows, weightK_apply]
  unfold weight
  rw [mul_comm c16]

end Cert.Lora

end
-- ==== Proof.KI.ValueTop.lean ====
/-
  The kernel program's result, read through the whole fold, is the specification.

  The result buffer is the reshape back to three axes of the second region's output array; that array is the row-wise
  contraction of the flattened input with the first region's output array, plus the one-row bias; the flattened input
  and the one-row bias are reshapes of two arguments, and the first region's output array is the adapted weight of three
  other arguments, none of which any stretch or region writes. Substituting these equations one by one and folding the
  three reshapes gives the specification of the launch memory's five arguments.
-/
import proofs.«172782_j53618371723762_1_alg».proof.Proof.KI.Whole
import proofs.«172782_j53618371723762_1_alg».proof.Proof.KI.Weight0Value
import proofs.«172782_j53618371723762_1_alg».proof.Proof.Spec2d
import proofs.«172782_j53618371723762_1_alg».proof.Proof.Assemble
import Idealize.ShloMosaic.Lib.StableHlo.Run

set_option maxRecDepth 16384

noncomputable section

open scoped BigOperators

namespace Cert.Lora.Top

open Cert.KernelIdeal Cert.KernelIdeal.Gen
open Idealize.ShloMosaic Idealize.ShloMosaic.TcCoe Idealize.ShloMosaic.ValueIdx Idealize.SL.Sem
open Idealize.ShloMosaic.StableHlo

/-- The adapted weight written with the base weight read at the index itself is the one written with it read at the
    index's two coordinates. -/
theorem weightK_eq (W : FVec Ideal S4096x4096 .f32) (B : FVec Ideal S4096x16 .f32) (A : FVec Ideal S16x4096 .f32) :
    Cert.Lora.W0.weightK W B A = Cert.Lora.weightK W B A :=
  funext fun j => congrArg (fun a : EReal => a + Cert.Lora.c16 * ∑ r : Fin 16, B (ix2 (j 0) r) * A (ix2 r (j 1)))
    (congrArg W (eq_ix2 j))

variable (m : (ℓ : Loc nD τ sig) → Buf (Elt Ideal) ℓ)

/-! ## The first stretch: x reshaped to rows -/

/-- The first stretch leaves every buffer but the flattened input as launched. -/
theorem W1_of_ne (c : Dev nD) (r : Ref sig .tc) (h : r ≠ main_v0) :
    Hand.W1 (F := Ideal) m c (Proc.devRef .tc r) = m ((c : Thread nD τ).loc r) := by
  dsimp only [Hand.W1, hostOps0]
  simp only [after_cons, after_nil]
  exact reshape_result_ne _ _ _ _ _ _ (Hand.W0 m c) h

/-- The flattened input is the reshape of x. -/
theorem W1_main_v0 (c : Dev nD) :
    (Hand.W1 (F := Ideal) m c (Proc.devRef .tc main_v0) : S16384x4096.Idx → EReal)
      = shapeCast S16384x4096 (m ((c : Thread nD τ).loc main_arg0) : S4x4096x4096.Idx → EReal)
          shapeCasts_S4x4096x4096_S16384x4096 := by
  dsimp only [Hand.W1, hostOps0]
  after_results
  rfl

/-! ## The second stretch: the bias reshaped to one row -/

/-- The second stretch leaves every buffer but the one-row bias as the first region left it. -/
theorem W3_of_ne (c : Dev nD) (r : Ref sig .tc) (h : r ≠ main_v2) :
    Hand.W3 (F := Ideal) m c (Proc.devRef .tc r) = Hand.W2 (F := Ideal) m c (Proc.devRef .tc r) := by
  dsimp only [Hand.W3, hostOps1]
  simp only [after_cons, after_nil]
  exact reshape_result_ne _ _ _ _ _ _ (Hand.W2 m c) h

/-- The one-row bias is the reshape of the bias as the first region left it. -/
theorem W3_main_v2 (c : Dev nD) :
    (Hand.W3 (F := Ideal) m c (Proc.devRef .tc main_v2) : S1x4096.Idx → EReal)
      = shapeCast S1x4096 (Hand.W2 (F := Ideal) m c (Proc.devRef .tc main_arg4) : S4096.Idx → EReal)
          shapeCasts_S4096_S1x4096 := by
  dsimp only [Hand.W3, hostOps1]
  after_results
  rfl

/-! ## The last stretch: the result reshaped back -/

/-- The result is the reshape back of the second region's output array. -/
theorem W5_main_v4 (c : Dev nD) :
    (Hand.W5 (F := Ideal) m c (Proc.devRef .tc main_v4) : S4x4096x4096.Idx → EReal)
      = shapeCast S4x4096x4096 (Hand.W4 (F := Ideal) m c (Proc.devRef .tc main_v3) : S16384x4096.Idx → EReal)
          shapeCasts_S16384x4096_S4x4096x4096 := by
  dsimp only [Hand.W5, hostOps2]
  after_results
  rfl

/-! ## What the second region finds in its three input arrays -/

/-- The rows: x flattened. -/
theorem V3_main_v0 (c : Dev nD) :
    (Hand.V3 (F := Ideal) m c main_v0 : S16384x4096.Idx → EReal)
      = shapeCast S16384x4096 (m ((c : Thread nD τ).loc main_arg0) : S4x4096x4096.Idx → EReal)
          shapeCasts_S4x4096x4096_S16384x4096 :=
  (W3_of_ne m c main_v0 (by decide)).trans ((Hand.W2_of_ne m c main_v0 (by decide)).trans (W1_main_v0 m c))

/-- The weight: what the first region left, the adapted weight of the launch memory's three arguments. -/
theorem V3_main_v1 (c : Dev nD) :
    (Hand.V3 (F := Ideal) m c main_v1 : S4096x4096.Idx → EReal)
      = Cert.Lora.weightK (m ((c : Thread nD τ).loc main_arg1)) (m ((c : Thread nD τ).loc main_arg3))
          (m ((c : Thread nD τ).loc main_arg2)) := by
  have a1 : Hand.V1 (F := Ideal) m c main_arg1 = m ((c : Thread nD τ).loc main_arg1) := W1_of_ne m c main_arg1 (by decide)
  have a2 : Hand.V1 (F := Ideal) m c main_arg2 = m ((c : Thread nD τ).loc main_arg2) := W1_of_ne m c main_arg2 (by decide)
  have a3 : Hand.V1 (F := Ideal) m c main_arg3 = m ((c : Thread nD τ).loc main_arg3) := W1_of_ne m c main_arg3 (by decide)
  have hw := Cert.Lora.W0.final0 (Hand.V1 (F := Ideal) m) c
  rw [a1, a2, a3, weightK_eq] at hw
  exact (W3_of_ne m c main_v1 (by decide)).trans ((Hand.W2_arr m c 3).trans hw)

/-- The bias: one row. -/
theorem V3_main_v2 (c : Dev nD) :
    (Hand.V3 (F := Ideal) m c main_v2 : S1x4096.Idx → EReal)
      = shapeCast S1x4096 (m ((c : Thread nD τ).loc main_arg4) : S4096.Idx → EReal) shapeCasts_S4096_S1x4096 :=
  (W3_main_v2 m c).trans (congrArg (fun a : S4096.Idx → EReal => shapeCast S1x4096 a shapeCasts_S4096_S1x4096)
    ((Hand.W2_of_ne m c main_arg4 (by decide)).trans (W1_of_ne m c main_arg4 (by decide))))

/-! ## The result -/

/-- THE RESULT, given the second region's output array as the row-wise contraction of what it finds: the specification
    of the launch memory's five arguments. -/
theorem result_eq (c : Dev nD)
    (hfinal1 : (Cert.KernelIdeal.Hand.dat1 (F := Ideal) (Hand.V3 m) c).arrAt 3 cfg1.N
      = Cert.Lora.G2d (Hand.V3 m c main_v0) (Hand.V3 m c main_v1) (Hand.V3 m c main_v2)) :
    Hand.W5 (F := Ideal) m c (Proc.devRef .tc main_v4)
      = Cert.Lora.G (m ((c : Thread nD τ).loc main_arg0)) (m ((c : Thread nD τ).loc main_arg1))
          (m ((c : Thread nD τ).loc main_arg2)) (m ((c : Thread nD τ).loc main_arg3)) (m ((c : Thread nD τ).loc main_arg4)) := by
  rw [V3_main_v0 m c, V3_main_v1 m c, V3_main_v2 m c] at hfinal1
  refine (W5_main_v4 m c).trans ?_
  refine Eq.trans (congrArg (fun a : S16384x4096.Idx → EReal => shapeCast S4x4096x4096 a shapeCasts_S16384x4096_S4x4096x4096)
    ((Hand.W4_arr m c 3).trans hfinal1)) ?_
  exact Cert.Lora.assemble _ _ _ _ _ _ _ _

end Cert.Lora.Top

end
-- ==== Proof.RefIsSpec.lean ====
/-
  The reference program computes the specification.

  The reference forms the rank-16 product B·A, scales it by the constant 16, adds the base weight W, contracts
  x's last axis against the adapted weight's second axis, and adds the bias broadcast along the last axis.
  Read at an output index (b, s, o) this is Σ_i x b s i · (W o i + (Σ_r B o r · A r i) · 16) + bias o, which is
  the specification's value at that index. The proof reads each stage at an index and identifies the stage's
  computed operand indices with the coordinate-built ones; no arithmetic law is used.
-/
import proofs.«172782_j53618371723762_1_alg».proof.Proof.Gen.ReferenceIdeal.Read
import proofs.«172782_j53618371723762_1_alg».proof.Proof.Spec

noncomputable section

open scoped BigOperators

namespace Cert.Lora.Ref

open Cert.ReferenceIdeal Cert.ReferenceIdeal.Read Idealize.ShloMosaic Idealize.ShloMosaic.ValueIdx

/-- The left operand's index of the outer contraction at output (b, s, o) and position k is (b, s, k). -/
theorem lidx_v4 (b : Fin 4) (s o k : Fin 4096) : lidx_main_v4 (ix3 b s o) k = ix3 b s k :=
  funext fun a => Fin.ext (by
    match a with
    | ⟨0, _⟩ => rfl
    | ⟨1, _⟩ => rfl
    | ⟨2, _⟩ => rfl)

/-- The right operand's index of the outer contraction at output (b, s, o) and position k is (o, k). -/
theorem ridx_v4 (b : Fin 4) (s o k : Fin 4096) : ridx_main_v4 (ix3 b s o) k = ix2 o k :=
  funext fun a => Fin.ext (by
    match a with
    | ⟨0, _⟩ => rfl
    | ⟨1, _⟩ => rfl)

/-- The left operand's index of the inner contraction at (o, i) and position r is (o, r). -/
theorem lidx_v0 (o i : Fin 4096) (r : Fin 16) : lidx_main_v0 (ix2 o i) r = ix2 o r :=
  funext fun a => Fin.ext (by
    match a with
    | ⟨0, _⟩ => rfl
    | ⟨1, _⟩ => rfl)

/-- The right operand's index of the inner contraction at (o, i) and position r is (r, i). -/
theorem ridx_v0 (o i : Fin 4096) (r : Fin 16) : ridx_main_v0 (ix2 o i) r = ix2 r i :=
  funext fun a => Fin.ext (by
    match a with
    | ⟨0, _⟩ => rfl
    | ⟨1, _⟩ => rfl)

/-- The bias is read at the output's last coordinate. -/
theorem idx_bias (b : Fin 4) (s o : Fin 4096) : idx_main_v5 (idx_main_v6 (ix3 b s o)) = ix1 o :=
  funext fun a => Fin.ext (by
    match a with
    | ⟨0, _⟩ => rfl)

/-- The adapted weight the reference forms, read at (o, i), is the specification's. -/
theorem val_v3_apply (W : (⟨S4096x4096, .f32⟩ : BufTy).Contents (Elt Ideal)) (A : (⟨S16x4096, .f32⟩ : BufTy).Contents (Elt Ideal))
    (B : (⟨S4096x16, .f32⟩ : BufTy).Contents (Elt Ideal)) (o i : Fin 4096) :
    val_main_v3 (F := Ideal) W A B (ix2 o i) = Cert.Lora.weight W A B o i := by
  rw [val_main_v3_apply, val_main_v2_apply, val_main_v0_apply, val_main_v1_apply, val_main_cst_apply]
  simp only [lidx_v0, ridx_v0]
  rfl

/-- The reference's result, as a function of its five arguments, is the specification. -/
theorem ref_eq_spec (x : (⟨S4x4096x4096, .f32⟩ : BufTy).Contents (Elt Ideal)) (W : (⟨S4096x4096, .f32⟩ : BufTy).Contents (Elt Ideal))
    (A : (⟨S16x4096, .f32⟩ : BufTy).Contents (Elt Ideal)) (B : (⟨S4096x16, .f32⟩ : BufTy).Contents (Elt Ideal))
    (bias : (⟨S4096, .f32⟩ : BufTy).Contents (Elt Ideal)) :
    val_main_v7 (F := Ideal) x W A B bias = Cert.Lora.G x W A B bias := by
  funext j
  obtain ⟨b, s, o, rfl⟩ : ∃ b s o, j = ix3 b s o := ⟨j 0, j 1, j 2, eq_ix3 j⟩
  rw [Cert.Lora.G_apply, val_main_v7_apply, val_main_v4_apply, val_main_v6_apply, val_main_v5_apply, idx_bias]
  simp only [lidx_v4, ridx_v4, val_v3_apply]
  rfl

end Cert.Lora.Ref

end
-- ==== Proof.lean ====
/-
  A linear layer with a low-rank correction, certified against its plain reference on the extended reals.

  The kernel's program is two kernel regions between three reshapes. The first region computes the adapted weight
  W + 16 · (B · A), block by block, narrowed to half precision (the identity on the extended reals). The second
  multiplies the flattened input by that matrix's transpose with the contraction cut into sixteen blocks of 256,
  summing the blocks' products in an accumulator it carries from grid point to grid point, and adds the bias when the
  last block is in. The reference computes x · (W + (B · A) · 16)ᵀ + bias in one piece. On the extended reals the two
  agree index by index: the format changes are the identity, 16 · s = s · 16, and a finite sum may be taken in
  consecutive blocks — commutativity and associativity only, so the finiteness of the inputs is never used.

  The frames: @main's five segments are run in order, each kernel region from its own body's run at every grid point
  (the first region's body is one case; the second's is three — first, middle and last point of a run of sixteen — with the
  accumulator held in the region's invariant between points); the contents of every unscoped buffer are followed through
  the segments, and no segment writes an argument. The word-level program's frame is the same text read at the
  word-level instance. The reference's frame is its run with the result dropped.

  The value: the run's last stage holds the result buffer at the reshape of the second region's array; that array is
  the contraction-plus-bias function of the arrays the region found (the accumulator's invariant, then the cover by the
  written-back blocks); the arrays it found are the reshapes of x and of the bias and the first region's array, the
  adapted weight; and the composition is the specification, which the reference's run also reaches.
-/
import proofs.«172782_j53618371723762_1_alg».proof.Defs
import proofs.«172782_j53618371723762_1_alg».proof.Proof.Gen.Kernel
import proofs.«172782_j53618371723762_1_alg».proof.Proof.Gen.KernelIdeal
import proofs.«172782_j53618371723762_1_alg».proof.Proof.Gen.ReferenceIdeal
import proofs.«172782_j53618371723762_1_alg».proof.Proof.Gen.ReferenceIdeal.Run
import proofs.«172782_j53618371723762_1_alg».proof.Proof.Gen.ReferenceIdeal.Read
import proofs.«172782_j53618371723762_1_alg».proof.Proof.Gen.Pre_finite_inputs
import proofs.«172782_j53618371723762_1_alg».proof.Proof.K.Whole
import proofs.«172782_j53618371723762_1_alg».proof.Proof.KI.Whole
import proofs.«172782_j53618371723762_1_alg».proof.Proof.KI.Value1
import proofs.«172782_j53618371723762_1_alg».proof.Proof.KI.ValueTop
import proofs.«172782_j53618371723762_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the specification's array of their (agreeing) arguments. -/
theorem algebraic : Cert.algebraic_KernelIdeal_ReferenceIdeal := by
  intro m ρ m' ρ' _ hagree
  refine ⟨fun c => Cert.Lora.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨?_, ?_, ?_, ?_, ?_, ?_⟩) (Cert.KernelIdeal.Hand.run_all (F := Ideal) m ρ)
    · exact (h c _ (Cert.KernelIdeal.Hand.mem_uc Cert.KernelIdeal.main_v4 (by decide))).trans
        (Cert.Lora.Top.result_eq m c (Cert.Lora.V1.final1 (Cert.KernelIdeal.Hand.V3 m) c))
    · exact (h c _ (Cert.KernelIdeal.Hand.mem_uc Cert.KernelIdeal.main_arg0 (by decide))).trans (Cert.KernelIdeal.Hand.W5_main_arg0 m c)
    · exact (h c _ (Cert.KernelIdeal.Hand.mem_uc Cert.KernelIdeal.main_arg1 (by decide))).trans (Cert.KernelIdeal.Hand.W5_main_arg1 m c)
    · exact (h c _ (Cert.KernelIdeal.Hand.mem_uc Cert.KernelIdeal.main_arg2 (by decide))).trans (Cert.KernelIdeal.Hand.W5_main_arg2 m c)
    · exact (h c _ (Cert.KernelIdeal.Hand.mem_uc Cert.KernelIdeal.main_arg3 (by decide))).trans (Cert.KernelIdeal.Hand.W5_main_arg3 m c)
    · exact (h c _ (Cert.KernelIdeal.Hand.mem_uc Cert.KernelIdeal.main_arg4 (by decide))).trans (Cert.KernelIdeal.Hand.W5_main_arg4 m c)
  · refine (θ_run Cert.ReferenceIdeal.defs _ _).mono (fun _ h c => ⟨?_, (h c).2⟩) (Cert.ReferenceIdeal.Value.run (F := Ideal) m' ρ')
    refine (h c).1.trans ((Cert.ReferenceIdeal.Read.val_main_v7_eq _ _ _ _ _).trans ((Cert.Lora.Ref.ref_eq_spec _ _ _ _ _).trans ?_))
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
